-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x256 : Shape := ⟨3, ![8, 256, 256]⟩
abbrev S8x64x256 : Shape := ⟨3, ![8, 64, 256]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S_ : Shape := ⟨0, ![]⟩

class Facts : Prop where
  bcast_S_S8x256x256 : S_.BroadcastsInDim S8x256x256 (![] : Fin 0 → Fin S8x256x256.rank)
  reducesTo_S8x256x256_S_d0_1_2 : S8x256x256.ReducesTo [0, 1, 2] S_
  h_S_ : 0 < S_.numel
  bcast_S_S8x64x256 : S_.BroadcastsInDim S8x64x256 (![] : Fin 0 → Fin S8x64x256.rank)
  reducesTo_S8x64x256_S_d0_1_2 : S8x64x256.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x512 .f32) (main_arg5 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x256x256 .f32) (main_arg1 : FVec F S8x64x256 .f32) (main_arg2 : FVec F S512x512 .f32) (main_arg3 : FVec F S512 .f32) (main_arg4 : FVec F S1024x512 .f32) (main_arg5 : FVec F S1024 .f32) : IVec S_ 1 :=
  let main_v0 : FVec F S8x256x256 .f32 := Host.absf main_arg0
  let main_cst : FVec F S_ .f32 := constant S_ .f32 0x7F800000#32
  let main_v1 : FVec F S8x256x256 .f32 := broadcastInDim S8x256x256 ![] bcast_S_S8x256x256 main_cst
  let main_v2 : IVec S8x256x256 1 := cmpf .olt main_v0 main_v1
  let main_c : IVec S_ 1 := constantI S_ 1 1#1
  let main_v3 : IVec S_ 1 := (fun x v => Host.reduce IntOp.andi x v reducesTo_S8x256x256_S_d0_1_2 h_S_) main_v2 main_c
  let main_v4 : FVec F S8x64x256 .f32 := Host.absf main_arg1
  let main_cst_0 : FVec F S_ .f32 := constant S_ .f32 0x7F800000#32
  let main_v5 : FVec F S8x64x256 .f32 := broadcastInDim S8x64x256 ![] bcast_S_S8x64x256 main_cst_0
  let main_v6 : IVec S8x64x256 1 := cmpf .olt main_v4 main_v5
  let main_c_1 : IVec S_ 1 := constantI S_ 1 1#1
  let main_v7 : IVec S_ 1 := (fun x v => Host.reduce IntOp.andi x v reducesTo_S8x64x256_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S8x256x256 : Shape := ⟨3, ![8, 256, 256]⟩
abbrev S8x64x256 : Shape := ⟨3, ![8, 64, 256]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S512x256 : Shape := ⟨2, ![512, 256]⟩
abbrev S1x512 : Shape := ⟨2, ![1, 512]⟩
abbrev S1x1024 : Shape := ⟨2, ![1, 1024]⟩
abbrev S8x256x64x1024 : Shape := ⟨4, ![8, 256, 64, 1024]⟩
abbrev S1x32x256 : Shape := ⟨3, ![1, 32, 256]⟩
abbrev S1x64x256 : Shape := ⟨3, ![1, 64, 256]⟩
abbrev S1x32x64x1024 : Shape := ⟨4, ![1, 32, 64, 1024]⟩
abbrev S64x512 : Shape := ⟨2, ![64, 512]⟩
abbrev S32x256 : Shape := ⟨2, ![32, 256]⟩
abbrev S256x512 : Shape := ⟨2, ![256, 512]⟩
abbrev S32x512 : Shape := ⟨2, ![32, 512]⟩
abbrev S64x256 : Shape := ⟨2, ![64, 256]⟩
abbrev S8x512 : Shape := ⟨2, ![8, 512]⟩
abbrev S8x1x512 : Shape := ⟨3, ![8, 1, 512]⟩
abbrev S1x64x512 : Shape := ⟨3, ![1, 64, 512]⟩
abbrev S8x64x512 : Shape := ⟨3, ![8, 64, 512]⟩
abbrev S1x1x512 : Shape := ⟨3, ![1, 1, 512]⟩
abbrev S512x1024 : Shape := ⟨2, ![512, 1024]⟩
abbrev S512x1 : Shape := ⟨2, ![512, 1]⟩
abbrev S8x64x1024 : Shape := ⟨3, ![8, 64, 1024]⟩
abbrev S1x8x64x1024 : Shape := ⟨4, ![1, 8, 64, 1024]⟩

abbrev nBuf : Space → Nat
  | .hbm => 14
  | .vmem => 12
  | .smem => 0
  | _ => 0

abbrev bufTy : (tb : Table) → Fin (tcTables nBuf tb) → BufTy
  | .hbm, ⟨0, _⟩ => ⟨S8x256x256, .f32⟩
  | .hbm, ⟨1, _⟩ => ⟨S8x64x256, .f32⟩
  | .hbm, ⟨2, _⟩ => ⟨S512x512, .f32⟩
  | .hbm, ⟨3, _⟩ => ⟨S512, .f32⟩
  | .hbm, ⟨4, _⟩ => ⟨S1024x512, .f32⟩
  | .hbm, ⟨5, _⟩ => ⟨S1024, .f32⟩
  | .hbm, ⟨6, _⟩ => ⟨S512x256, .f32⟩
  | .hbm, ⟨7, _⟩ => ⟨S512x256, .bf16⟩
  | .hbm, ⟨8, _⟩ => ⟨S512x256, .f32⟩
  | .hbm, ⟨9, _⟩ => ⟨S512x256, .bf16⟩
  | .hbm, ⟨10, _⟩ => ⟨S1024x512, .bf16⟩
  | .hbm, ⟨11, _⟩ => ⟨S1x512, .f32⟩
  | .hbm, ⟨12, _⟩ => ⟨S1x1024, .f32⟩
  | .hbm, ⟨13, _⟩ => ⟨S8x256x64x1024, .f32⟩
  | .local _ .vmem, ⟨0, _⟩ => ⟨S1x32x256, .f32⟩
  | .local _ .vmem, ⟨1, _⟩ => ⟨S1x32x256, .f32⟩
  | .local _ .vmem, ⟨2, _⟩ => ⟨S1x64x256, .f32⟩
  | .local _ .vmem, ⟨3, _⟩ => ⟨S1x64x256, .f32⟩
  | .local _ .vmem, ⟨4, _⟩ => ⟨S512x256, .bf16⟩
  | .local _ .vmem, ⟨5, _⟩ => ⟨S512x256, .bf16⟩
  | .local _ .vmem, ⟨6, _⟩ => ⟨S1x512, .f32⟩
  | .local _ .vmem, ⟨7, _⟩ => ⟨S1024x512, .bf16⟩
  | .local _ .vmem, ⟨8, _⟩ => ⟨S1x1024, .f32⟩
  | .local _ .vmem, ⟨9, _⟩ => ⟨S1x32x64x1024, .f32⟩
  | .local _ .vmem, ⟨10, _⟩ => ⟨S1x32x64x1024, .f32⟩
  | .local _ .vmem, ⟨11, _⟩ => ⟨S64x512, .f32⟩
  | _, _ => ⟨S8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x32x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S512x512_S512x256_0_0 : S512x512.Slices ![0, 0] S512x256
  bitsLt_bf16_f32 : FTy.bits .bf16 < FTy.bits .f32
  slices_S512x512_S512x256_0_256 : S512x512.Slices ![0, 256] S512x256
  shapeCasts_S512_S1x512 : S512.ShapeCasts S1x512
  shapeCasts_S1024_S1x1024 : S1024.ShapeCasts S1x1024
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  slices_S32x512_o0_0_S8x512 : S32x512.Slices ![0, 0] S8x512
  shapeCasts_S8x512_S8x1x512 : S8x512.ShapeCasts S8x1x512
  shapeCasts_S64x512_S1x64x512 : S64x512.ShapeCasts S1x64x512
  broadcasts_S8x1x512_S8x64x512 : S8x1x512.Broadcasts S8x64x512
  broadcasts_S1x64x512_S8x64x512 : S1x64x512.Broadcasts S8x64x512
  shapeCasts_S1x512_S1x1x512 : S1x512.ShapeCasts S1x1x512
  broadcasts_S1x1x512_S8x64x512 : S1x1x512.Broadcasts S8x64x512
  shapeCasts_S8x64x512_S512x512 : S8x64x512.ShapeCasts S512x512
  transposes_S1024x512_p1_0_S512x1024 : S1024x512.Transposes [1, 0] S512x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  shapeCasts_S512x1024_S8x64x1024 : S512x1024.ShapeCasts S8x64x1024
  inb_S1x32x64x1024_S1x8x64x1024_0_0_0_0 : ∀ a, (![0, 0, 0, 0] : Fin 4 → Nat) a + S1x8x64x1024.size a ≤ S1x32x64x1024.size a
  h_S1x8x64x1024 : 0 < S1x8x64x1024.numel
  shapeCasts_S1x8x64x1024_S8x64x1024 : S1x8x64x1024.ShapeCasts S8x64x1024
  shapeCasts_S8x64x1024_S1x8x64x1024 : S8x64x1024.ShapeCasts S1x8x64x1024
  slices_S32x512_o8_0_S8x512 : S32x512.Slices ![8, 0] S8x512
  inb_S1x32x64x1024_S1x8x64x1024_0_8_0_0 : ∀ a, (![0, 8, 0, 0] : Fin 4 → Nat) a + S1x8x64x1024.size a ≤ S1x32x64x1024.size a
  slices_S32x512_o16_0_S8x512 : S32x512.Slices ![16, 0] S8x512
  inb_S1x32x64x1024_S1x8x64x1024_0_16_0_0 : ∀ a, (![0, 16, 0, 0] : Fin 4 → Nat) a + S1x8x64x1024.size a ≤ S1x32x64x1024.size a
  slices_S32x512_o24_0_S8x512 : S32x512.Slices ![24, 0] S8x512
  inb_S1x32x64x1024_S1x8x64x1024_0_24_0_0 : ∀ a, (![0, 24, 0, 0] : Fin 4 → Nat) a + S1x8x64x1024.size a ≤ S1x32x64x1024.size a
  dot_S32x256_S256x512_S32x512_1_0_0_1_n_n_wf : DotDims.WF S32x256 S256x512 S32x512 [1] [0] [0] [1] [] []
  dot_S64x256_S256x512_S64x512_1_0_0_1_n_n_wf : DotDims.WF S64x256 S256x512 S64x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x256.size a ≤ S8x256x256.size a
  hwx0_0 : ∀ i : grid0.Coords, EltTy.bits .f32 = 32 ∨ (Rect.block (s := S8x256x256) S1x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x256.size a ≤ S8x64x256.size a
  hwx0_1 : ∀ i : grid0.Coords, EltTy.bits .f32 = 32 ∨ (Rect.block (s := S8x64x256) S1x64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .bf16 = 32 ∨ (Rect.block (s := S1024x512) S1024x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x64x1024.size a ≤ S8x256x64x1024.size a
  hwx0_7 : ∀ i : grid0.Coords, EltTy.bits .f32 = 32 ∨ (Rect.block (s := S8x256x64x1024) S1x32x64x1024.size (cc0_transform_7 i) (hinb0_7 i)).WholeWords (EltTy.packing .f32)

variable [Facts₀]

def dot_S32x256_S256x512_S32x512_1_0_0_1_n_n : DotDims S32x256 S256x512 S32x512 where
  lhsContracting := [1]
  rhsContracting := [0]
  lhsNonContracting := [0]
  rhsNonContracting := [1]
  lhsBatch := []
  rhsBatch := []
  wf := dot_S32x256_S256x512_S32x512_1_0_0_1_n_n_wf
def dot_S64x256_S256x512_S64x512_1_0_0_1_n_n : DotDims S64x256 S256x512 S64x512 where
  lhsContracting := [1]
  rhsContracting := [0]
  lhsNonContracting := [0]
  rhsNonContracting := [1]
  lhsBatch := []
  rhsBatch := []
  wf := dot_S64x256_S256x512_S64x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S1x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x32x64x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x256x256 : Shape := ⟨3, ![8, 256, 256]⟩
abbrev S8x64x256 : Shape := ⟨3, ![8, 64, 256]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S512x256 : Shape := ⟨2, ![512, 256]⟩
abbrev S8x256x512 : Shape := ⟨3, ![8, 256, 512]⟩
abbrev S8x64x512 : Shape := ⟨3, ![8, 64, 512]⟩
abbrev S8x256x1x512 : Shape := ⟨4, ![8, 256, 1, 512]⟩
abbrev S8x1x64x512 : Shape := ⟨4, ![8, 1, 64, 512]⟩
abbrev S8x256x64x512 : Shape := ⟨4, ![8, 256, 64, 512]⟩
abbrev S1x1x1x512 : Shape := ⟨4, ![1, 1, 1, 512]⟩
abbrev S8x256x64x1024 : Shape := ⟨4, ![8, 256, 64, 1024]⟩
abbrev S1x1x1x1024 : Shape := ⟨4, ![1, 1, 1, 1024]⟩
abbrev S_ : Shape := ⟨0, ![]⟩
abbrev S8x256x64 : Shape := ⟨3, ![8, 256, 64]⟩
abbrev S8x256x64x1 : Shape := ⟨4, ![8, 256, 64, 1]⟩

abbrev nBuf : Space → Nat
  | .hbm => 38
  | .vmem => 0
  | .smem => 0
  | _ => 0

abbrev bufTy : (tb : Table) → Fin (tcTables nBuf tb) → BufTy
  | .hbm, ⟨0, _⟩ => ⟨S8x256x256, .f32⟩
  | .hbm, ⟨1, _⟩ => ⟨S8x64x256, .f32⟩
  | .hbm, ⟨2, _⟩ => ⟨S512x512, .f32⟩
  | .hbm, ⟨3, _⟩ => ⟨S512, .f32⟩
  | .hbm, ⟨4, _⟩ => ⟨S1024x512, .f32⟩
  | .hbm, ⟨5, _⟩ => ⟨S1024, .f32⟩
  | .hbm, ⟨6, _⟩ => ⟨S512x256, .f32⟩
  | .hbm, ⟨7, _⟩ => ⟨S512x256, .f32⟩
  | .hbm, ⟨8, _⟩ => ⟨S8x256x512, .f32⟩
  | .hbm, ⟨9, _⟩ => ⟨S8x64x512, .f32⟩
  | .hbm, ⟨10, _⟩ => ⟨S8x256x1x512, .f32⟩
  | .hbm, ⟨11, _⟩ => ⟨S8x1x64x512, .f32⟩
  | .hbm, ⟨12, _⟩ => ⟨S8x256x64x512, .f32⟩
  | .hbm, ⟨13, _⟩ => ⟨S8x256x64x512, .f32⟩
  | .hbm, ⟨14, _⟩ => ⟨S8x256x64x512, .f32⟩
  | .hbm, ⟨15, _⟩ => ⟨S1x1x1x512, .f32⟩
  | .hbm, ⟨16, _⟩ => ⟨S8x256x64x512, .f32⟩
  | .hbm, ⟨17, _⟩ => ⟨S8x256x64x512, .f32⟩
  | .hbm, ⟨18, _⟩ => ⟨S8x256x64x512, .f32⟩
  | .hbm, ⟨19, _⟩ => ⟨S8x256x64x1024, .f32⟩
  | .hbm, ⟨20, _⟩ => ⟨S1x1x1x1024, .f32⟩
  | .hbm, ⟨21, _⟩ => ⟨S8x256x64x1024, .f32⟩
  | .hbm, ⟨22, _⟩ => ⟨S8x256x64x1024, .f32⟩
  | .hbm, ⟨23, _⟩ => ⟨S_, .f32⟩
  | .hbm, ⟨24, _⟩ => ⟨S8x256x64, .f32⟩
  | .hbm, ⟨25, _⟩ => ⟨S_, .f32⟩
  | .hbm, ⟨26, _⟩ => ⟨S8x256x64, .f32⟩
  | .hbm, ⟨27, _⟩ => ⟨S8x256x64, .f32⟩
  | .hbm, ⟨28, _⟩ => ⟨S8x256x64x1, .f32⟩
  | .hbm, ⟨29, _⟩ => ⟨S8x256x64x1024, .f32⟩
  | .hbm, ⟨30, _⟩ => ⟨S8x256x64x1024, .f32⟩
  | .hbm, ⟨31, _⟩ => ⟨S8x256x64x1024, .f32⟩
  | .hbm, ⟨32, _⟩ => ⟨S_, .f32⟩
  | .hbm, ⟨33, _⟩ => ⟨S8x256x64, .f32⟩
  | .hbm, ⟨34, _⟩ => ⟨S8x256x64x1, .f32⟩
  | .hbm, ⟨35, _⟩ => ⟨S8x256x64x1, .f32⟩
  | .hbm, ⟨36, _⟩ => ⟨S8x256x64x1024, .f32⟩
  | .hbm, ⟨37, _⟩ => ⟨S8x256x64x1024, .f32⟩
  | _, _ => ⟨S8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_cst : Ref sig .tc := ⟨.hbm, 23, rfl⟩
abbrev main_call0_v0 : Ref sig .tc := ⟨.hbm, 24, rfl⟩
abbrev main_call0_cst_0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_cst_1 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_v17 : Ref sig .tc := ⟨.hbm, 37, rfl⟩

abbrev nD : Nat := 1
abbrev τ : Topo := Topo.v7x

variable {F : FTy → Type} [FloatOps F]

class Facts₀ : Prop where
  slices_S512x512_S512x256_0_0 : S512x512.Slices ![0, 0] S512x256
  slices_S512x512_S512x256_0_256 : S512x512.Slices ![0, 256] S512x256
  bcast_S8x256x512_S8x256x1x512_0_1_3 : S8x256x512.BroadcastsInDim S8x256x1x512 (![0, 1, 3] : Fin 3 → Fin S8x256x1x512.rank)
  bcast_S8x64x512_S8x1x64x512_0_2_3 : S8x64x512.BroadcastsInDim S8x1x64x512 (![0, 2, 3] : Fin 3 → Fin S8x1x64x512.rank)
  bcast_S8x256x1x512_S8x256x64x512_0_1_2_3 : S8x256x1x512.BroadcastsInDim S8x256x64x512 (![0, 1, 2, 3] : Fin 4 → Fin S8x256x64x512.rank)
  bcast_S8x1x64x512_S8x256x64x512_0_1_2_3 : S8x1x64x512.BroadcastsInDim S8x256x64x512 (![0, 1, 2, 3] : Fin 4 → Fin S8x256x64x512.rank)
  bcast_S512_S1x1x1x512_3 : S512.BroadcastsInDim S1x1x1x512 (![3] : Fin 1 → Fin S1x1x1x512.rank)
  bcast_S1x1x1x512_S8x256x64x512_0_1_2_3 : S1x1x1x512.BroadcastsInDim S8x256x64x512 (![0, 1, 2, 3] : Fin 4 → Fin S8x256x64x512.rank)
  bcast_S1024_S1x1x1x1024_3 : S1024.BroadcastsInDim S1x1x1x1024 (![3] : Fin 1 → Fin S1x1x1x1024.rank)
  bcast_S1x1x1x1024_S8x256x64x1024_0_1_2_3 : S1x1x1x1024.BroadcastsInDim S8x256x64x1024 (![0, 1, 2, 3] : Fin 4 → Fin S8x256x64x1024.rank)
  reducesTo_S8x256x64x1024_S8x256x64_d3 : S8x256x64x1024.ReducesTo [3] S8x256x64
  h_S_ : 0 < S_.numel
  bcast_S_S8x256x64 : S_.BroadcastsInDim S8x256x64 (![] : Fin 0 → Fin S8x256x64.rank)
  bcast_S8x256x64_S8x256x64x1_0_1_2 : S8x256x64.BroadcastsInDim S8x256x64x1 (![0, 1, 2] : Fin 3 → Fin S8x256x64x1.rank)
  bcast_S8x256x64x1_S8x256x64x1024_0_1_2_3 : S8x256x64x1.BroadcastsInDim S8x256x64x1024 (![0, 1, 2, 3] : Fin 4 → Fin S8x256x64x1024.rank)
  dot_S8x256x256_S512x256_S8x256x512_2_1_01_0_n_n_wf : DotDims.WF S8x256x256 S512x256 S8x256x512 [2] [1] [0, 1] [0] [] []
  dot_S8x64x256_S512x256_S8x64x512_2_1_01_0_n_n_wf : DotDims.WF S8x64x256 S512x256 S8x64x512 [2] [1] [0, 1] [0] [] []
  dot_S8x256x64x512_S1024x512_S8x256x64x1024_3_1_012_0_n_n_wf : DotDims.WF S8x256x64x512 S1024x512 S8x256x64x1024 [3] [1] [0, 1, 2] [0] [] []

variable [Facts₀]

def dot_S8x256x256_S512x256_S8x256x512_2_1_01_0_n_n : DotDims S8x256x256 S512x256 S8x256x512 where
  lhsContracting := [2]
  rhsContracting := [1]
  lhsNonContracting := [0, 1]
  rhsNonContracting := [0]
  lhsBatch := []
  rhsBatch := []
  wf := dot_S8x256x256_S512x256_S8x256x512_2_1_01_0_n_n_wf
def dot_S8x64x256_S512x256_S8x64x512_2_1_01_0_n_n : DotDims S8x64x256 S512x256 S8x64x512 where
  lhsContracting := [2]
  rhsContracting := [1]
  lhsNonContracting := [0, 1]
  rhsNonContracting := [0]
  lhsBatch := []
  rhsBatch := []
  wf := dot_S8x64x256_S512x256_S8x64x512_2_1_01_0_n_n_wf
def dot_S8x256x64x512_S1024x512_S8x256x64x1024_3_1_012_0_n_n : DotDims S8x256x64x512 S1024x512 S8x256x64x1024 where
  lhsContracting := [3]
  rhsContracting := [1]
  lhsNonContracting := [0, 1, 2]
  rhsNonContracting := [0]
  lhsBatch := []
  rhsBatch := []
  wf := dot_S8x256x64x512_S1024x512_S8x256x64x1024_3_1_012_0_n_n_wf

class Facts : Prop extends Facts₀ where

variable [Facts]
-- ==== Proof.Spec.lean ====
/-
  The joint network's output as one function of its six arguments.

  For a batch `b`, an encoder frame `t` and a decoder position `u` the network projects the frame and the position with the two
  halves of `W1` (columns 0–255 act on the encoder features, columns 256–511 on the decoder features), adds the two
  projections and the bias `b1`, applies `tanh`, multiplies by `W2`, adds `b2`, and takes the logarithm of the softmax along
  the vocabulary axis:

      ep j    = ∑ e, enc (b, t, e) · W1 (j, e)                       dp j = ∑ p, dec (b, u, p) · W1 (j, 256 + p)
      x v     = (∑ j, tanh (ep j + dp j + b1 j) · W2 (v, j)) + b2 v
      out v   = (x v − M) − log (∑ k, exp (x k − M)),                M = ⨆ k, x k

  all of it on the extended reals. Nothing here mentions a program.
-/
import Idealize.ShloMosaic.PureOps.Ideal
import Idealize.ShloMosaic.Lib.ValueIdx

noncomputable section

namespace Cert.Joint

open Idealize.ShloMosaic Idealize.ShloMosaic.ValueIdx

/-- The logarithm of the softmax of one row of scores, with the row's supremum subtracted first. -/
def lsm {n : ℕ} (x : Fin n → EReal) (v : Fin n) : EReal :=
  (x v - ⨆ k, x k) - Ideal.log (∑ k, Ideal.exp (x k - ⨆ k', x k'))

/-- One row of scores from a row of encoder projections `ep`, a row of decoder projections `dp`, the hidden bias, the output
    weights and the output bias. -/
def logitRow (ep dp b1 : Fin 512 → EReal) (W2 : Fin 1024 → Fin 512 → EReal) (b2 : Fin 1024 → EReal) (v : Fin 1024) : EReal :=
  (∑ j : Fin 512, Ideal.tanh (ep j + dp j + b1 j) * W2 v j) + b2 v

/-- Column `e` of the encoder half of `W1`. -/
abbrev lo (e : Fin 256) : Fin 512 := ⟨e.val, by have := e.isLt; omega⟩
/-- Column `p` of the decoder half of `W1`. -/
abbrev hi (p : Fin 256) : Fin 512 := ⟨256 + p.val, by have := p.isLt; omega⟩

/-- The encoder projection of frame `(b, t)` from the encoder half of a `[512, 256]` weight matrix. -/
def encRow (enc : (⟨3, ![8, 256, 256]⟩ : Shape).Idx → EReal) (We : (⟨2, ![512, 256]⟩ : Shape).Idx → EReal) (b : Fin 8) (t : Fin 256)
    (j : Fin 512) : EReal := ∑ e : Fin 256, enc (ix3 b t e) * We (ix2 j e)

/-- The decoder projection of position `(b, u)` from the decoder half of the weights. -/
def decRow (dec : (⟨3, ![8, 64, 256]⟩ : Shape).Idx → EReal) (Wd : (⟨2, ![512, 256]⟩ : Shape).Idx → EReal) (b : Fin 8) (u : Fin 64)
    (j : Fin 512) : EReal := ∑ p : Fin 256, dec (ix3 b u p) * Wd (ix2 j p)

/-- The network's output at `(b, t, u, v)`, from the two halves of `W1` given as `[512, 256]` matrices. -/
def out (enc : (⟨3, ![8, 256, 256]⟩ : Shape).Idx → EReal) (dec : (⟨3, ![8, 64, 256]⟩ : Shape).Idx → EReal)
    (We Wd : (⟨2, ![512, 256]⟩ : Shape).Idx → EReal) (b1 : Fin 512 → EReal) (W2 : (⟨2, ![1024, 512]⟩ : Shape).Idx → EReal)
    (b2 : Fin 1024 → EReal) (b : Fin 8) (t : Fin 256) (u : Fin 64) (v : Fin 1024) : EReal :=
  lsm (logitRow (encRow enc We b t) (decRow dec Wd b u) b1 (fun v j => W2 (ix2 v j)) b2) v

/-- The two halves of `W1`, as matrices. -/
def W1e (W1 : (⟨2, ![512, 512]⟩ : Shape).Idx → EReal) : (⟨2, ![512, 256]⟩ : Shape).Idx → EReal := fun i => W1 (ix2 (i 0) (lo (i 1)))
def W1d (W1 : (⟨2, ![512, 512]⟩ : Shape).Idx → EReal) : (⟨2, ![512, 256]⟩ : Shape).Idx → EReal := fun i => W1 (ix2 (i 0) (hi (i 1)))

/-- The network's output as an array of shape `[8, 256, 64, 1024]`, a function of the six arguments. -/
def G (enc : (⟨3, ![8, 256, 256]⟩ : Shape).Idx → EReal) (dec : (⟨3, ![8, 64, 256]⟩ : Shape).Idx → EReal)
    (W1 : (⟨2, ![512, 512]⟩ : Shape).Idx → EReal) (b1 : (⟨1, ![512]⟩ : Shape).Idx → EReal)
    (W2 : (⟨2, ![1024, 512]⟩ : Shape).Idx → EReal) (b2 : (⟨1, ![1024]⟩ : Shape).Idx → EReal) :
    (⟨4, ![8, 256, 64, 1024]⟩ : Shape).Idx → EReal :=
  fun i => out enc dec (W1e W1) (W1d W1) (fun j => b1 (ix1 j)) W2 (fun v => b2 (ix1 v)) (i 0) (i 1) (i 2) (i 3)

end Cert.Joint

end
-- ==== Proof.LibReduceInf.lean ====
/-
  Minimum and maximum reductions read at the extended reals as infimum and supremum.

  At the exact values a float minimum is `min` and a float maximum is `max` on the extended reals, the
  pattern of `+∞` is the top element and the pattern of `-∞` the bottom. A fold of `min` from the top over
  a finite set is therefore the infimum over the set, and a fold of `max` from the bottom the supremum.
  The lemmas below say so of a host reduction and of a kernel's vector reduction, over the set of source
  indices that reduce to a result index, over all source indices when every result axis has size one,
  and over the coordinates of the one reduced axis.
-/
import Idealize.ShloMosaic.PureOps.Ideal
import Idealize.ShloMosaic.PureOps.Ideal.Laws
import Idealize.ShloMosaic.PureOps.Reduce
import Idealize.ShloMosaic.Lib.ValueIdx
import Mathlib.Order.CompleteLattice.Finset

noncomputable section

namespace Cert.LibReduceInf

open Idealize.ShloMosaic Idealize.ShloMosaic.ValueIdx

/-- The binary32 pattern of `+∞` denotes the top extended real. -/
theorem ofBits_posInf_f32 : Ideal.ofBits .f32 0x7F800000#32 = ⊤ := by
  simp [Ideal.ofBits, Ideal.ieee]

/-- The binary32 pattern of `-∞` denotes the bottom extended real. -/
theorem ofBits_negInf_f32 : Ideal.ofBits .f32 0xFF800000#32 = ⊥ := by
  simp [Ideal.ofBits, Ideal.ieee]

/-- A fold from the top element of an operation that is `min` is the infimum over the set. -/
theorem fold_eq_inf {ι : Type} (op : EReal → EReal → EReal) [Std.Commutative op] [Std.Associative op]
    (hop : ∀ x y, op x y = min x y) (S : Finset ι) (f : ι → EReal) : S.fold op ⊤ f = S.inf f := by
  induction S using Finset.cons_induction with
  | empty => simp
  | cons a S ha ih => rw [Finset.fold_cons, Finset.inf_cons, ih, hop]

/-- A fold from the bottom element of an operation that is `max` is the supremum over the set. -/
theorem fold_eq_sup {ι : Type} (op : EReal → EReal → EReal) [Std.Commutative op] [Std.Associative op]
    (hop : ∀ x y, op x y = max x y) (S : Finset ι) (f : ι → EReal) : S.fold op ⊥ f = S.sup f := by
  induction S using Finset.cons_induction with
  | empty => simp
  | cons a S ha ih => rw [Finset.fold_cons, Finset.sup_cons, ih, hop]

/-! ## The host's reduction -/

/-- A host reduction with a minimum body from `+∞`, at a result index: the infimum over the set of
    source indices that reduce to it. -/
theorem hostReduce_minimumf_eq_inf {s t u : Shape} {axes : List (Fin s.rank)} (x : s.Idx → EReal)
    (h : s.ReducesTo axes t) (hu : 0 < u.numel) (j : t.Idx) :
    Host.reduce (FloatOps.minimumf (F := Ideal) (φ := .f32)) x (constant (F := Ideal) u .f32 0x7F800000#32) h hu j
      = (Finset.univ.filter fun i => h.drop i = j).inf x := by
  rw [Host.reduce_eq_fold]
  show Finset.fold _ (Ideal.ofBits .f32 0x7F800000#32) x _ = _
  rw [ofBits_posInf_f32, fold_eq_inf (FloatOps.minimumf (F := Ideal) (φ := .f32)) (fun _ _ => rfl)]

/-- A host reduction with a maximum body from `-∞`, at a result index: the supremum over the set of
    source indices that reduce to it. -/
theorem hostReduce_maximumf_eq_sup {s t u : Shape} {axes : List (Fin s.rank)} (x : s.Idx → EReal)
    (h : s.ReducesTo axes t) (hu : 0 < u.numel) (j : t.Idx) :
    Host.reduce (FloatOps.maximumf (F := Ideal) (φ := .f32)) x (constant (F := Ideal) u .f32 0xFF800000#32) h hu j
      = (Finset.univ.filter fun i => h.drop i = j).sup x := by
  rw [Host.reduce_eq_fold]
  show Finset.fold _ (Ideal.ofBits .f32 0xFF800000#32) x _ = _
  rw [ofBits_negInf_f32, fold_eq_sup (FloatOps.maximumf (F := Ideal) (φ := .f32)) (fun _ _ => rfl)]

/-- Into a shape whose every axis has size one every source index reduces to the one result index. -/
theorem filter_drop_eq_univ {s t : Shape} {axes : List (Fin s.rank)} (h : s.ReducesTo axes t)
    (ht : ∀ b, t.size b = 1) (j : t.Idx) : (Finset.univ.filter fun i => h.drop i = j) = Finset.univ :=
  Finset.filter_true_of_mem fun i _ => funext fun b => Fin.ext (by
    have := (h.drop i b).isLt; have := (j b).isLt; have := ht b; omega)

/-- A host reduction with a minimum body from `+∞` into a shape whose every axis has size one (a full
    reduction to rank zero, where the size hypothesis is vacuous): the infimum of the whole operand. -/
theorem hostReduce_minimumf_total {s t u : Shape} {axes : List (Fin s.rank)} (x : s.Idx → EReal)
    (h : s.ReducesTo axes t) (ht : ∀ b, t.size b = 1) (hu : 0 < u.numel) :
    Host.reduce (FloatOps.minimumf (F := Ideal) (φ := .f32)) x (constant (F := Ideal) u .f32 0x7F800000#32) h hu
      = fun _ => ⨅ i, x i := by
  funext j
  rw [hostReduce_minimumf_eq_inf, filter_drop_eq_univ h ht, Finset.inf_univ_eq_iInf]

/-- A host reduction with a maximum body from `-∞` into a shape whose every axis has size one: the
    supremum of the whole operand. -/
theorem hostReduce_maximumf_total {s t u : Shape} {axes : List (Fin s.rank)} (x : s.Idx → EReal)
    (h : s.ReducesTo axes t) (ht : ∀ b, t.size b = 1) (hu : 0 < u.numel) :
    Host.reduce (FloatOps.maximumf (F := Ideal) (φ := .f32)) x (constant (F := Ideal) u .f32 0xFF800000#32) h hu
      = fun _ => ⨆ i, x i := by
  funext j
  rw [hostReduce_maximumf_eq_sup, filter_drop_eq_univ h ht, Finset.sup_univ_eq_iSup]

/-! ## A kernel's vector reduction -/

/-- A kernel's minimum reduction from `+∞`, at a result index: the infimum over the set of source
    indices that reduce to it. -/
theorem multiReduction_minimumf_eq_inf {s t : Shape} {axes : List (Fin s.rank)} (src : FVec Ideal s .f32)
    (h : s.Reduces axes t) (hφ : FKind.Formats .f32) (hacc : (0x7F800000#32 : BitVec 32) = 0x7F800000#32) (j : t.Idx) :
    multiReduction (F := Ideal) .minimumf axes t src 0x7F800000#32 h hφ hacc j
      = (Finset.univ.filter fun i => h.drop i = j).inf src := by
  refine (multiReduction_minimumf_eq_fold src 0x7F800000#32 h hφ hacc j).trans ?_
  show Finset.fold _ (Ideal.ofBits .f32 0x7F800000#32) src _ = _
  rw [ofBits_posInf_f32, fold_eq_inf (FloatOps.minimumf (F := Ideal) (φ := .f32)) (fun _ _ => rfl)]

/-- A kernel's maximum reduction from `-∞`, at a result index: the supremum over the set of source
    indices that reduce to it. -/
theorem multiReduction_maximumf_eq_sup {s t : Shape} {axes : List (Fin s.rank)} (src : FVec Ideal s .f32)
    (h : s.Reduces axes t) (hφ : FKind.Formats .f32) (hacc : (0xFF800000#32 : BitVec 32) = 0xFF800000#32) (j : t.Idx) :
    multiReduction (F := Ideal) .maximumf axes t src 0xFF800000#32 h hφ hacc j
      = (Finset.univ.filter fun i => h.drop i = j).sup src := by
  refine (multiReduction_maximumf_eq_fold src 0xFF800000#32 h hφ hacc j).trans ?_
  show Finset.fold _ (Ideal.ofBits .f32 0xFF800000#32) src _ = _
  rw [ofBits_negInf_f32, fold_eq_sup (FloatOps.maximumf (F := Ideal) (φ := .f32)) (fun _ _ => rfl)]

/-- A kernel's minimum reduction over ONE axis from `+∞`, at a result index `j`: the infimum over that
    axis's coordinates `k` of the source at `j` with `k` inserted. -/
theorem multiReduction_minimumf_single {s t : Shape} {a : Fin s.rank} (src : FVec Ideal s .f32)
    (h : s.Reduces [a] t) (hφ : FKind.Formats .f32) (hacc : (0x7F800000#32 : BitVec 32) = 0x7F800000#32) (j : t.Idx) :
    multiReduction (F := Ideal) .minimumf [a] t src 0x7F800000#32 h hφ hacc j
      = ⨅ k : Fin (s.size a), src (h.lift j k) := by
  refine (multiReduction_minimumf_eq_fold src 0x7F800000#32 h hφ hacc j).trans ?_
  rw [h.fold_filter_drop_single]
  show Finset.fold _ (Ideal.ofBits .f32 0x7F800000#32) _ _ = _
  rw [ofBits_posInf_f32, fold_eq_inf (FloatOps.minimumf (F := Ideal) (φ := .f32)) (fun _ _ => rfl), Finset.inf_univ_eq_iInf]
  rfl

/-- A kernel's maximum reduction over ONE axis from `-∞`, at a result index `j`: the supremum over that
    axis's coordinates `k` of the source at `j` with `k` inserted. -/
theorem multiReduction_maximumf_single {s t : Shape} {a : Fin s.rank} (src : FVec Ideal s .f32)
    (h : s.Reduces [a] t) (hφ : FKind.Formats .f32) (hacc : (0xFF800000#32 : BitVec 32) = 0xFF800000#32) (j : t.Idx) :
    multiReduction (F := Ideal) .maximumf [a] t src 0xFF800000#32 h hφ hacc j
      = ⨆ k : Fin (s.size a), src (h.lift j k) := by
  refine (multiReduction_maximumf_eq_fold src 0xFF800000#32 h hφ hacc j).trans ?_
  rw [h.fold_filter_drop_single]
  show Finset.fold _ (Ideal.ofBits .f32 0xFF800000#32) _ _ = _
  rw [ofBits_negInf_f32, fold_eq_sup (FloatOps.maximumf (F := Ideal) (φ := .f32)) (fun _ _ => rfl), Finset.sup_univ_eq_iSup]
  rfl

end Cert.LibReduceInf

end
-- ==== Proof.LibReduceAxis.lean ====
/-
  A host maximum reduction over one axis read at the extended reals as a supremum over that axis's coordinates.

  At the exact values a float maximum is `max`, and the pattern of `-∞` is the bottom element, so a host reduction with a
  maximum body from `-∞` along ONE axis is, at a result index `j`, the supremum over the axis's coordinates `k` of the operand
  at `j` with `k` inserted; likewise a minimum body from `+∞` gives the infimum. General: no program is mentioned.
-/
import proofs.«152257_j26439818674455_2_alg».proof.Proof.LibReduceInf
import Idealize.ShloMosaic.PureOps.Reduce

noncomputable section

namespace Cert.LibReduceAxis

open Idealize.ShloMosaic Idealize.ShloMosaic.ValueIdx Cert.LibReduceInf

/-- A host reduction with a maximum body from `-∞` over ONE axis, at a result index `j`: the supremum over that axis's
    coordinates `k` of the operand at `j` with `k` inserted. -/
theorem hostReduce_maximumf_single {s t u : Shape} {a : Fin s.rank} (x : s.Idx → EReal)
    (h' : s.ReducesTo [a] t) (h : s.Reduces [a] t) (hu : 0 < u.numel) (j : t.Idx) :
    Host.reduce (FloatOps.maximumf (F := Ideal) (φ := .f32)) x (constant (F := Ideal) u .f32 0xFF800000#32) h' hu j
      = ⨆ k : Fin (s.size a), x (h.lift j k) := by
  rw [Host.reduce_eq_fold_single _ x _ h' h hu j]
  show Finset.fold _ (Ideal.ofBits .f32 0xFF800000#32) _ _ = _
  rw [ofBits_negInf_f32, fold_eq_sup (FloatOps.maximumf (F := Ideal) (φ := .f32)) (fun _ _ => rfl), Finset.sup_univ_eq_iSup]
  rfl

/-- A host reduction with a minimum body from `+∞` over ONE axis, at a result index `j`: the infimum over that axis's
    coordinates. -/
theorem hostReduce_minimumf_single {s t u : Shape} {a : Fin s.rank} (x : s.Idx → EReal)
    (h' : s.ReducesTo [a] t) (h : s.Reduces [a] t) (hu : 0 < u.numel) (j : t.Idx) :
    Host.reduce (FloatOps.minimumf (F := Ideal) (φ := .f32)) x (constant (F := Ideal) u .f32 0x7F800000#32) h' hu j
      = ⨅ k : Fin (s.size a), x (h.lift j k) := by
  rw [Host.reduce_eq_fold_single _ x _ h' h hu j]
  show Finset.fold _ (Ideal.ofBits .f32 0x7F800000#32) _ _ = _
  rw [ofBits_posInf_f32, fold_eq_inf (FloatOps.minimumf (F := Ideal) (φ := .f32)) (fun _ _ => rfl), Finset.inf_univ_eq_iInf]
  rfl

end Cert.LibReduceAxis

end
-- ==== Proof.RefValue.lean ====
/-
  The reference program computes the joint network's output function.

  The reference projects every encoder frame and every decoder position with a half of `W1` (two `dot_general`s over the
  256 features), spreads the two projections and the bias over `[8, 256, 64, 512]`, adds them, applies `tanh`, contracts
  with `W2` over the 512 hidden units, adds `b2`, and takes `log_softmax` along the vocabulary axis: the maximum of a
  row (a maximum with `-∞` leaves it unchanged), the row minus it, the logarithm of the sum of the exponentials, and the
  difference. Read at `(b, t, u, v)`, stage by stage, this is `Cert.Joint.out` of the arguments.
-/
import proofs.«152257_j26439818674455_2_alg».proof.Proof.RefReadP
import proofs.«152257_j26439818674455_2_alg».proof.Proof.Spec
import proofs.«152257_j26439818674455_2_alg».proof.Proof.LibReduceAxis

noncomputable section

namespace Cert.ReferenceIdeal.RefValue

open Cert.ReferenceIdeal Cert.ReferenceIdeal.Gen Cert.ReferenceIdeal.ReadP Idealize.ShloMosaic Idealize.ShloMosaic.ValueIdx
open Cert.Joint

variable (x0 : (⟨S8x256x256, .f32⟩ : BufTy).Contents (Elt Ideal)) (x1 : (⟨S8x64x256, .f32⟩ : BufTy).Contents (Elt Ideal)) (x2 : (⟨S512x512, .f32⟩ : BufTy).Contents (Elt Ideal)) (x3 : (⟨S512, .f32⟩ : BufTy).Contents (Elt Ideal)) (x4 : (⟨S1024x512, .f32⟩ : BufTy).Contents (Elt Ideal)) (x5 : (⟨S1024, .f32⟩ : BufTy).Contents (Elt Ideal))

/-- The encoder projection of frame `(b, t)`. -/
theorem encp (b : Fin 8) (t : Fin 256) (j : Fin 512) :
    val_main_v2 (F := Ideal) x0 x2 (ix3 b t j) = encRow x0 (W1e x2) b t j := by
  rw [val_main_v2_apply]
  unfold encRow
  refine Finset.sum_congr rfl fun e _ => ?_
  rw [val_main_v0_apply]
  have e1 : lidx_main_v2 (ix3 b t j) e = ix3 b t e := funext fun a => by
    match a with
    | ⟨0, _⟩ => rfl
    | ⟨1, _⟩ => rfl
    | ⟨2, _⟩ => rfl
  have e2 : idx_main_v0 (ridx_main_v2 (ix3 b t j) e) = ix2 j (lo e) := funext fun a => by
    match a with
    | ⟨0, _⟩ => rfl
    | ⟨1, _⟩ => rfl
  rw [e1, e2]
  rfl

/-- The decoder projection of position `(b, u)`. -/
theorem decp (b : Fin 8) (u : Fin 64) (j : Fin 512) :
    val_main_v3 (F := Ideal) x1 x2 (ix3 b u j) = decRow x1 (W1d x2) b u j := by
  rw [val_main_v3_apply]
  unfold decRow
  refine Finset.sum_congr rfl fun p _ => ?_
  rw [val_main_v1_apply]
  have e1 : lidx_main_v3 (ix3 b u j) p = ix3 b u p := funext fun a => by
    match a with
    | ⟨0, _⟩ => rfl
    | ⟨1, _⟩ => rfl
    | ⟨2, _⟩ => rfl
  have e2 : idx_main_v1 (ridx_main_v3 (ix3 b u j) p) = ix2 j (hi p) := funext fun a => by
    match a with
    | ⟨0, _⟩ => rfl
    | ⟨1, _⟩ => rfl
  rw [e1, e2]
  rfl

/-- The hidden unit `j` before `tanh`: the two projections and the bias. -/
theorem preact (b : Fin 8) (t : Fin 256) (u : Fin 64) (j : Fin 512) :
    val_main_v11 (F := Ideal) x0 x1 x2 x3 (ix4 b t u j) = encRow x0 (W1e x2) b t j + decRow x1 (W1d x2) b u j + x3 (ix1 j) := by
  show (val_main_v6 (F := Ideal) x0 x2 (ix4 b t u j) + val_main_v7 (F := Ideal) x1 x2 (ix4 b t u j))
    + val_main_v10 (F := Ideal) x3 (ix4 b t u j) = _
  rw [val_main_v6_apply, val_main_v4_apply, val_main_v7_apply, val_main_v5_apply, val_main_v10_apply, val_main_v9_apply]
  have e1 : idx_main_v4 (idx_main_v6 (ix4 b t u j)) = ix3 b t j := funext fun a => by
    match a with
    | ⟨0, _⟩ => rfl
    | ⟨1, _⟩ => rfl
    | ⟨2, _⟩ => rfl
  have e2 : idx_main_v5 (idx_main_v7 (ix4 b t u j)) = ix3 b u j := funext fun a => by
    match a with
    | ⟨0, _⟩ => rfl
    | ⟨1, _⟩ => rfl
    | ⟨2, _⟩ => rfl
  have e3 : idx_main_v9 (idx_main_v10 (ix4 b t u j)) = ix1 j := funext fun a => by
    match a with
    | ⟨0, _⟩ => rfl
  rw [e1, e2, e3, encp, decp]

/-- The row of scores of frame `(b, t)` and decoder position `u`. -/
abbrev scores (b : Fin 8) (t : Fin 256) (u : Fin 64) : Fin 1024 → EReal :=
  logitRow (encRow x0 (W1e x2) b t) (decRow x1 (W1d x2) b u) (fun j => x3 (ix1 j)) (fun v j => x4 (ix2 v j)) (fun v => x5 (ix1 v))

theorem logit (b : Fin 8) (t : Fin 256) (u : Fin 64) (v : Fin 1024) :
    val_main_v16 (F := Ideal) x0 x1 x2 x3 x4 x5 (ix4 b t u v) = scores x0 x1 x2 x3 x4 x5 b t u v := by
  show val_main_v13 (F := Ideal) x0 x1 x2 x3 x4 (ix4 b t u v) + val_main_v15 (F := Ideal) x5 (ix4 b t u v) = _
  rw [val_main_v13_apply, val_main_v15_apply, val_main_v14_apply]
  have e3 : idx_main_v14 (idx_main_v15 (ix4 b t u v)) = ix1 v := funext fun a => by
    match a with
    | ⟨0, _⟩ => rfl
  rw [e3]
  unfold scores logitRow
  refine congrArg (· + _) (Finset.sum_congr rfl fun j _ => ?_)
  have e1 : lidx_main_v13 (ix4 b t u v) j = ix4 b t u j := funext fun a => by
    match a with
    | ⟨0, _⟩ => rfl
    | ⟨1, _⟩ => rfl
    | ⟨2, _⟩ => rfl
    | ⟨3, _⟩ => rfl
  have e2 : ridx_main_v13 (ix4 b t u v) j = ix2 v j := funext fun a => by
    match a with
    | ⟨0, _⟩ => rfl
    | ⟨1, _⟩ => rfl
  rw [e1, e2]
  show Ideal.tanh (val_main_v11 (F := Ideal) x0 x1 x2 x3 (ix4 b t u j)) * _ = _
  rw [preact]

/-- The maximum of a row of scores. -/
theorem rowMax (b : Fin 8) (t : Fin 256) (u : Fin 64) :
    val_main_call0_v2 (F := Ideal) x0 x1 x2 x3 x4 x5 (ix3 b t u) = ⨆ k : Fin 1024, scores x0 x1 x2 x3 x4 x5 b t u k := by
  rw [val_main_call0_v2_apply, val_main_call0_v1_apply, val_main_call0_cst_0_apply, Ideal.maximumf_def, Ideal.ofBits_def,
    Cert.LibReduceInf.ofBits_negInf_f32, max_eq_right bot_le]
  unfold val_main_call0_v0 val_main_call0_cst
  rw [Cert.LibReduceAxis.hostReduce_maximumf_single _ reducesTo_S8x256x64x1024_S8x256x64_d3 (by decide) h_S_]
  refine iSup_congr fun k => ?_
  refine Eq.trans (congrArg _ (funext fun a => ?_)) (logit x0 x1 x2 x3 x4 x5 b t u k)
  match a with
  | ⟨0, _⟩ => rfl
  | ⟨1, _⟩ => rfl
  | ⟨2, _⟩ => rfl
  | ⟨3, _⟩ => rfl

/-- A score minus its row's maximum. -/
theorem shiftedAt (b : Fin 8) (t : Fin 256) (u : Fin 64) (v : Fin 1024) :
    val_main_call0_v5 (F := Ideal) x0 x1 x2 x3 x4 x5 (ix4 b t u v)
      = scores x0 x1 x2 x3 x4 x5 b t u v - ⨆ k : Fin 1024, scores x0 x1 x2 x3 x4 x5 b t u k := by
  show val_main_v16 (F := Ideal) x0 x1 x2 x3 x4 x5 (ix4 b t u v) - val_main_call0_v4 (F := Ideal) x0 x1 x2 x3 x4 x5 (ix4 b t u v) = _
  rw [val_main_call0_v4_apply, val_main_call0_v3_apply]
  have e1 : idx_main_call0_v3 (idx_main_call0_v4 (ix4 b t u v)) = ix3 b t u := funext fun a => by
    match a with
    | ⟨0, _⟩ => rfl
    | ⟨1, _⟩ => rfl
    | ⟨2, _⟩ => rfl
  rw [e1, rowMax, logit]

/-- The reference's result at `(b, t, u, v)`. -/
theorem resultAt (b : Fin 8) (t : Fin 256) (u : Fin 64) (v : Fin 1024) :
    val_main_v17 (F := Ideal) x0 x1 x2 x3 x4 x5 (ix4 b t u v) = lsm (scores x0 x1 x2 x3 x4 x5 b t u) v := by
  show val_main_call0_v5 (F := Ideal) x0 x1 x2 x3 x4 x5 (ix4 b t u v) - val_main_call0_v10 (F := Ideal) x0 x1 x2 x3 x4 x5 (ix4 b t u v) = _
  rw [val_main_call0_v10_apply]
  show _ - Ideal.log (val_main_call0_v8 (F := Ideal) x0 x1 x2 x3 x4 x5 (idx_main_call0_v10 (ix4 b t u v))) = _
  rw [val_main_call0_v8_apply, val_main_call0_v7_apply]
  have e1 : idx_main_call0_v8 (idx_main_call0_v10 (ix4 b t u v)) = ix3 b t u := funext fun a => by
    match a with
    | ⟨0, _⟩ => rfl
    | ⟨1, _⟩ => rfl
    | ⟨2, _⟩ => rfl
  rw [e1, val_main_call0_cst_1_apply, Ideal.ofBits_def, Ideal.ofBits_zero_f32, zero_add, shiftedAt]
  unfold lsm
  refine congrArg (fun s => _ - Ideal.log s) (Finset.sum_congr rfl fun k _ => ?_)
  have e2 : idx_main_call0_v7 (ix3 b t u) k = ix4 b t u k := funext fun a => by
    match a with
    | ⟨0, _⟩ => rfl
    | ⟨1, _⟩ => rfl
    | ⟨2, _⟩ => rfl
    | ⟨3, _⟩ => rfl
  rw [e2]
  show Ideal.exp (val_main_call0_v5 (F := Ideal) x0 x1 x2 x3 x4 x5 (ix4 b t u k)) = _
  rw [shiftedAt]

/-- The reference's result array is the joint network's output function of the arguments. -/
theorem result_eq : val_main_v17 (F := Ideal) x0 x1 x2 x3 x4 x5 = Cert.Joint.G x0 x1 x2 x3 x4 x5 := by
  funext i
  obtain ⟨b, t, u, v, rfl⟩ : ∃ (b : Fin 8) (t : Fin 256) (u : Fin 64) (v : Fin 1024), i = ix4 b t u v :=
    ⟨i 0, i 1, i 2, i 3, eq_ix4 i⟩
  rw [resultAt]
  rfl

end Cert.ReferenceIdeal.RefValue

end
-- ==== Proof.LibLayoutRank3.lean ====
/-
  Rank-3 layout facts read at an index built from coordinates: the unit axis in the MIDDLE, and broadcasts along the
  leading and middle axes.

  A matrix [a, b] and the same entries carried with a middle axis of size one, [a, 1, b], list their entries in the same
  row-major order, so the cast reads the operand at the index with the unit coordinate dropped. A vector-dialect
  broadcast to [a, b, c] of an operand that has size one on some of the axes reads the operand at the index with those
  coordinates set to zero: a slab [a, 1, c] is repeated along the middle axis, a slab [1, b, c] along the leading axis, a
  row [1, 1, c] along both. (The casts with the unit axis in FRONT and the rank-2 row broadcast are the library's.)
  General: no program is mentioned.
-/
import Idealize.ShloMosaic.Lib.Pipeline.Value
import Idealize.ShloMosaic.Lib.ValueIdx

namespace Cert.Lib.LayoutRank3

open Idealize.ShloMosaic Idealize.ShloMosaic.ValueIdx

variable {α : Type}

/-- An `[a, b]` array cast to `[a, 1, b]` reads, at `(p, 0, q)`, the operand at `(p, q)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- A slab `[a, 1, c]` broadcast to `[a, b, c]` reads, at `(p, q, r)`, the slab at `(p, 0, r)`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p (0 : Fin 1) r) := by
  refine broadcastTo_apply x h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A slab `[1, b, c]` broadcast to `[a, b, c]` reads, at `(p, q, r)`, the slab at `(0, q, r)`. -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 (0 : Fin 1) q r) := by
  refine broadcastTo_apply x h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A row `[1, 1, c]` broadcast to `[a, b, c]` reads, at `(p, q, r)`, the row at `(0, 0, r)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ x h (ix3 p q r) = x (ix3 (0 : Fin 1) (0 : Fin 1) r) := by
  refine broadcastTo_apply x h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

end Cert.Lib.LayoutRank3
-- ==== Proof.LibFlattenRows.lean ====
/-
  The two leading axes of an array merged into one, or one leading axis split into two, by a shape cast, read at an
  index given by coordinates.

  An array of shape [a, b, c] and an array of shape [n, c] with n = a·b list the same entries in row-major order: entry
  (p, q, r) of the first stands at position (p·b + q)·c + r, which is the position of entry (p·b + q, r) of the second.
  A cast in either direction therefore reads, at the one index, the operand at the other. The row number is passed as
  its own `Fin n` with the equation `k = p·b + q`, so that a caller may spell it as it finds it.
-/
import Idealize.ShloMosaic.Lib.Pipeline.Value
import Idealize.ShloMosaic.Lib.ValueIdx

namespace Cert.LibFlattenRows

open Idealize.ShloMosaic Idealize.ShloMosaic.ValueIdx

variable {α : Type}

/-- Row `p·b + q` of the merged array exists: it is below `a·b`. -/
theorem row_lt {a b : ℕ} (p : Fin a) (q : Fin b) : p.val * b + q.val < a * b :=
  calc p.val * b + q.val < p.val * b + b := Nat.add_lt_add_left q.isLt _
    _ = (p.val + 1) * b := (Nat.succ_mul _ _).symm
    _ ≤ a * b := Nat.mul_le_mul_right b p.isLt

/-- An `[a, b, c]` array cast to `[n, c]` (so `n = a·b`) reads, at `(k, r)` with `k = p·b + q`, the operand at
    `(p, q, r)`: the two indices have the same row-major position. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (r : Fin c) (k : Fin n)
    (hk : k.val = p.val * b + q.val) :
    shapeCast ⟨2, ![n, c]⟩ x h (ix2 k r) = x (ix3 p q r) :=
  shapeCast_apply x h _ _ (by
    rw [Shape.rowMajor_val_three, Shape.rowMajor_val_two]
    show (p.val * b + q.val) * c + r.val = k.val * c + r.val
    rw [hk])

/-- An `[n, c]` array cast to `[a, b, c]` (so `n = a·b`) reads, at `(p, q, r)`, the operand at `(k, r)` with
    `k = p·b + q`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (r : Fin c) (k : Fin n)
    (hk : k.val = p.val * b + q.val) :
    shapeCast ⟨3, ![a, b, c]⟩ x h (ix3 p q r) = x (ix2 k r) :=
  shapeCast_apply x h _ _ (by
    rw [Shape.rowMajor_val_three, Shape.rowMajor_val_two]
    show k.val * c + r.val = (p.val * b + q.val) * c + r.val
    rw [hk])

end Cert.LibFlattenRows
-- ==== Proof.LibLayoutCols.lean ====
/-
  Layout facts for a row statistic kept as a column (`keepdims`): an `[a]` array cast to `[a, 1]`, an `[a, 1]` column
  broadcast across `[a, b]`, and a sum along the second axis of an `[a, b]` array read at a row. General: they mention
  no program.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.LayoutCols

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float sum along the second axis of an `[a, b]` array of extended reals, read at row `p`: the sum over the
    row's entries. (The accumulator's word is the sum's neutral element, whatever way its proof is spelt.) -/
theorem rowSum_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (p : Fin a) :
    multiReduction .add [1] (⟨1, ![a]⟩ : Shape) src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.Lib.LayoutCols

end
-- ==== Proof.LibMlpRows.lean ====
/-
  Two-layer perceptron rows on the extended reals.

  A plain matrix product of an [E, K] array with a [K, H] array (the left operand contracted on its second axis, the
  right on its first) read at row r and column c is the sum over k of x (r, k) * w (k, c).  A concatenation of
  row-aligned pieces along the second axis reads, at column k, the piece whose span holds k.  So a product of a
  concatenation with W is the sum of the products of the pieces with the row bands of W: a finite sum split at the
  piece boundaries, which needs only that addition on the extended reals is commutative and associative.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

noncomputable section

open scoped BigOperators

namespace Cert.MlpRows

open Idealize.ShloMosaic Idealize.ShloMosaic.ValueIdx

/-- The dimension numbers of a plain product [E, K] × [K, H] → [E, H]. -/
abbrev pdot (E K H : ℕ) (wf : DotDims.WF ⟨2, ![E, K]⟩ ⟨2, ![K, H]⟩ ⟨2, ![E, H]⟩ [1] [0] [0] [1] [] []) :
    DotDims ⟨2, ![E, K]⟩ ⟨2, ![K, H]⟩ ⟨2, ![E, H]⟩ :=
  { lhsContracting := [1], rhsContracting := [0], lhsNonContracting := [0], rhsNonContracting := [1],
    lhsBatch := [], rhsBatch := [], wf := wf }

/-- A plain product read at (r, c) is the sum over k of x (r, k) * w (k, c). -/
theorem pdot_apply {E K H : ℕ} (wf : DotDims.WF ⟨2, ![E, K]⟩ ⟨2, ![K, H]⟩ ⟨2, ![E, H]⟩ [1] [0] [0] [1] [] [])
    {φ₁ φ₂ : FTy} (prec : Option ContractPrecision) (x : FVec Ideal ⟨2, ![E, K]⟩ φ₁) (w : FVec Ideal ⟨2, ![K, H]⟩ φ₂)
    (r : Fin E) (c : Fin H) :
    Host.dotGeneral (pdot E K H wf) prec x w (ix2 r c) = ∑ k : Fin K, x (ix2 r k) * w (ix2 k c) := by
  simp only [Host.dotGeneral]
  rw [Ideal.dotGeneral_apply, ← Equiv.sum_comp (contrEquiv1 (pdot E K H wf) K rfl rfl).symm]
  refine Finset.sum_congr rfl fun k _ => ?_
  have hk := contrEquiv1_symm_val (pdot E K H wf) K rfl rfl k
  have el : (pdot E K H wf).lhsIdx (ix2 r c) ((contrEquiv1 (pdot E K H wf) K rfl rfl).symm k) = ix2 r k :=
    funext fun a => Fin.ext (by
      match a with
      | ⟨0, _⟩ =>
        show ((pdot E K H wf).lhsIdx (ix2 r c) _ 0).val = r.val
        unfold DotDims.lhsIdx
        rw [dif_neg (show ¬(0 : Fin 2) ∈ ([] : List (Fin 2)) by decide),
          dif_pos (show (0 : Fin 2) ∈ [(0 : Fin 2)] by decide)]
        rfl
      | ⟨1, _⟩ => exact ((pdot E K H wf).lhsIdx_val_of_single rfl _ _).trans hk)
  have er : (pdot E K H wf).rhsIdx (ix2 r c) ((contrEquiv1 (pdot E K H wf) K rfl rfl).symm k) = ix2 k c :=
    funext fun a => Fin.ext (by
      match a with
      | ⟨0, _⟩ => exact ((pdot E K H wf).rhsIdx_val_of_single rfl _ _).trans hk
      | ⟨1, _⟩ =>
        show ((pdot E K H wf).rhsIdx (ix2 r c) _ 1).val = c.val
        unfold DotDims.rhsIdx
        rw [dif_neg (show ¬(1 : Fin 2) ∈ ([] : List (Fin 2)) by decide),
          dif_pos (show (1 : Fin 2) ∈ [(1 : Fin 2)] by decide)]
        rfl)
  rw [el, er]

/-- The vector unit's product into a zero accumulator, read the same way. -/
theorem pmatmul_apply {E K H : ℕ} (wf : DotDims.WF ⟨2, ![E, K]⟩ ⟨2, ![K, H]⟩ ⟨2, ![E, H]⟩ [1] [0] [0] [1] [] [])
    {φ₁ φ₂ : FTy} (prec : Option ContractPrecision) (x : FVec Ideal ⟨2, ![E, K]⟩ φ₁) (w : FVec Ideal ⟨2, ![K, H]⟩ φ₂)
    (r : Fin E) (c : Fin H) :
    matmul (pdot E K H wf) prec x w (constant ⟨2, ![E, H]⟩ .f32 0x00000000#32) (ix2 r c)
      = ∑ k : Fin K, x (ix2 r k) * w (ix2 k c) := by
  rw [matmul_zero_eq_dotGeneral]; exact pdot_apply wf prec x w r c

/-- A [n] vector cast to a [1, n] row reads, at (0, c), the vector at c. -/
theorem shapeCast_n_1n_apply {n : ℕ} {α : Type} (b : (⟨1, ![n]⟩ : Shape).Idx → α)
    (h : (⟨1, ![n]⟩ : Shape).ShapeCasts ⟨2, ![1, n]⟩) (u : Fin 1) (c : Fin n) :
    shapeCast ⟨2, ![1, n]⟩ b h (ix2 u c) = b (ix1 c) :=
  shapeCast_apply b h _ _ (by
    have hu : u.val = 0 := by omega
    rw [Shape.rowMajor_val_two, Shape.rowMajor_val_one]
    show c.val = u.val * n + c.val
    rw [hu, Nat.zero_mul, Nat.zero_add])

/-- The f32 zero word read on the extended reals: the value both layers clamp at. -/
abbrev zero32 : Ideal .f32 := Scalar.ofBits .f32 0x00000000#32

/-! ## The row formulas -/

/-- One output of a layer whose input row is cut into three pieces: the three partial products against the bands of
    W starting at rows 0, o1 and o2, added left to right, plus the bias, clamped below at z. -/
def pre3 {K0 K1 K2 K H : ℕ} (o1 o2 : ℕ) (h0 : K0 ≤ K) (h1 : o1 + K1 ≤ K) (h2 : o2 + K2 ≤ K)
    (a0 : Fin K0 → EReal) (a1 : Fin K1 → EReal) (a2 : Fin K2 → EReal)
    (W : (⟨2, ![K, H]⟩ : Shape).Idx → EReal) (b : Fin H → EReal) (z : EReal) (h : Fin H) : EReal :=
  max ((((∑ k : Fin K0, a0 k * W (ix2 (⟨k.val, by have := k.isLt; omega⟩ : Fin K) h))
      + ∑ k : Fin K1, a1 k * W (ix2 (⟨o1 + k.val, by have := k.isLt; omega⟩ : Fin K) h))
      + ∑ k : Fin K2, a2 k * W (ix2 (⟨o2 + k.val, by have := k.isLt; omega⟩ : Fin K) h)) + b h) z

/-- The same with two pieces. -/
def pre2 {K0 K1 K H : ℕ} (o1 : ℕ) (h0 : K0 ≤ K) (h1 : o1 + K1 ≤ K)
    (a0 : Fin K0 → EReal) (a1 : Fin K1 → EReal)
    (W : (⟨2, ![K, H]⟩ : Shape).Idx → EReal) (b : Fin H → EReal) (z : EReal) (h : Fin H) : EReal :=
  max (((∑ k : Fin K0, a0 k * W (ix2 (⟨k.val, by have := k.isLt; omega⟩ : Fin K) h))
      + ∑ k : Fin K1, a1 k * W (ix2 (⟨o1 + k.val, by have := k.isLt; omega⟩ : Fin K) h)) + b h) z

/-- One output of a layer on a whole input row. -/
def lay {H O : ℕ} (a : Fin H → EReal) (W : (⟨2, ![H, O]⟩ : Shape).Idx → EReal) (b : Fin O → EReal) (z : EReal)
    (c : Fin O) : EReal :=
  max ((∑ h : Fin H, a h * W (ix2 h c)) + b c) z

/-! ## The kernel body's layers read at (r, c) -/

/-- A layer of the kernel body on one input: product into a zero accumulator, bias row broadcast down the rows,
    maximum with a splat. -/
theorem klay_apply {T H O : ℕ} (wf : DotDims.WF ⟨2, ![T, H]⟩ ⟨2, ![H, O]⟩ ⟨2, ![T, O]⟩ [1] [0] [0] [1] [] [])
    {φ ψ : FTy} (X : FVec Ideal ⟨2, ![T, H]⟩ φ) (W : FVec Ideal ⟨2, ![H, O]⟩ ψ) (b : FVec Ideal ⟨2, ![1, O]⟩ .f32)
    (sc : (⟨2, ![1, O]⟩ : Shape).ShapeCasts ⟨2, ![1, O]⟩) (bc : (⟨2, ![1, O]⟩ : Shape).Broadcasts ⟨2, ![T, O]⟩)
    (z : Ideal .f32) (r : Fin T) (c : Fin O) :
    maximumf (addf (matmul (pdot T H O wf) none X W (constant ⟨2, ![T, O]⟩ .f32 0x00000000#32))
        (broadcastTo ⟨2, ![T, O]⟩ (shapeCast ⟨2, ![1, O]⟩ b sc) bc)) (broadcast ⟨2, ![T, O]⟩ z) (ix2 r c)
      = lay (fun h => X (ix2 r h)) W (fun c => b (ix2 (0 : Fin 1) c)) z c := by
  rw [shapeCast_self, maximumf_apply, addf_apply, pmatmul_apply, broadcastTo_1b_ab_apply]
  rfl

/-- One band product of the first layer: the piece, cast to its own shape, against the band of the weight matrix
    starting at row o. -/
theorem kband_apply {T Ki K H : ℕ} (o : ℕ) (hb : o + Ki ≤ K)
    (wf : DotDims.WF ⟨2, ![T, Ki]⟩ ⟨2, ![Ki, H]⟩ ⟨2, ![T, H]⟩ [1] [0] [0] [1] [] [])
    {φ ψ : FTy} (x : FVec Ideal ⟨2, ![T, Ki]⟩ φ) (W : FVec Ideal ⟨2, ![K, H]⟩ ψ)
    (sc : (⟨2, ![T, Ki]⟩ : Shape).ShapeCasts ⟨2, ![T, Ki]⟩)
    (sl : (⟨2, ![K, H]⟩ : Shape).Slices ![o, 0] ⟨2, ![Ki, H]⟩) (r : Fin T) (h : Fin H) :
    matmul (pdot T Ki H wf) none (shapeCast ⟨2, ![T, Ki]⟩ x sc) (extractStridedSlice ⟨2, ![Ki, H]⟩ ![o, 0] W sl)
        (constant ⟨2, ![T, H]⟩ .f32 0x00000000#32) (ix2 r h)
      = ∑ k : Fin Ki, x (ix2 r k) * W (ix2 (⟨o + k.val, by have := k.isLt; omega⟩ : Fin K) h) := by
  rw [shapeCast_self, pmatmul_apply]
  refine Finset.sum_congr rfl fun k _ => ?_
  rw [slice2_axis0_apply o W sl k h ⟨o + k.val, by have := k.isLt; omega⟩ rfl]

/-- The whole kernel body with a three-piece input, read at (r, c): the second layer of the first. Narrowing a
    value's float format changes nothing on the extended reals. -/
theorem kernel3_apply {T K0 K1 K2 K H O : ℕ} (o1 o2 : ℕ) (h0 : K0 ≤ K) (h1 : o1 + K1 ≤ K) (h2 : o2 + K2 ≤ K)
    (wfA : DotDims.WF ⟨2, ![T, K0]⟩ ⟨2, ![K0, H]⟩ ⟨2, ![T, H]⟩ [1] [0] [0] [1] [] [])
    (wfB : DotDims.WF ⟨2, ![T, K1]⟩ ⟨2, ![K1, H]⟩ ⟨2, ![T, H]⟩ [1] [0] [0] [1] [] [])
    (wfC : DotDims.WF ⟨2, ![T, K2]⟩ ⟨2, ![K2, H]⟩ ⟨2, ![T, H]⟩ [1] [0] [0] [1] [] [])
    (wf2 : DotDims.WF ⟨2, ![T, H]⟩ ⟨2, ![H, O]⟩ ⟨2, ![T, O]⟩ [1] [0] [0] [1] [] [])
    (hlt : FTy.bf16.bits < FTy.f32.bits)
    (v0 : FVec Ideal ⟨2, ![K, H]⟩ .f32) (v2 : FVec Ideal ⟨2, ![T, K0]⟩ .bf16) (v6 : FVec Ideal ⟨2, ![T, K1]⟩ .bf16)
    (v11 : FVec Ideal ⟨2, ![T, K2]⟩ .bf16) (v16 : FVec Ideal ⟨2, ![1, H]⟩ .f32) (v23 : FVec Ideal ⟨2, ![H, O]⟩ .f32)
    (v26 : FVec Ideal ⟨2, ![1, O]⟩ .f32)
    (sc2 : (⟨2, ![T, K0]⟩ : Shape).ShapeCasts ⟨2, ![T, K0]⟩) (sc6 : (⟨2, ![T, K1]⟩ : Shape).ShapeCasts ⟨2, ![T, K1]⟩)
    (sc11 : (⟨2, ![T, K2]⟩ : Shape).ShapeCasts ⟨2, ![T, K2]⟩)
    (sl0 : (⟨2, ![K, H]⟩ : Shape).Slices ![0, 0] ⟨2, ![K0, H]⟩) (sl1 : (⟨2, ![K, H]⟩ : Shape).Slices ![o1, 0] ⟨2, ![K1, H]⟩)
    (sl2 : (⟨2, ![K, H]⟩ : Shape).Slices ![o2, 0] ⟨2, ![K2, H]⟩)
    (sc16 : (⟨2, ![1, H]⟩ : Shape).ShapeCasts ⟨2, ![1, H]⟩) (bc1 : (⟨2, ![1, H]⟩ : Shape).Broadcasts ⟨2, ![T, H]⟩)
    (sc26 : (⟨2, ![1, O]⟩ : Shape).ShapeCasts ⟨2, ![1, O]⟩) (bc2 : (⟨2, ![1, O]⟩ : Shape).Broadcasts ⟨2, ![T, O]⟩)
    (z : Ideal .f32) (r : Fin T) (c : Fin O) :
    maximumf (addf (matmul (pdot T H O wf2) none
        (truncf .bf16 (maximumf (addf (addf (addf
            (matmul (pdot T K0 H wfA) none (shapeCast ⟨2, ![T, K0]⟩ v2 sc2)
              (extractStridedSlice ⟨2, ![K0, H]⟩ ![0, 0] (truncf .bf16 v0 hlt) sl0) (constant ⟨2, ![T, H]⟩ .f32 0x00000000#32))
            (matmul (pdot T K1 H wfB) none (shapeCast ⟨2, ![T, K1]⟩ v6 sc6)
              (extractStridedSlice ⟨2, ![K1, H]⟩ ![o1, 0] (truncf .bf16 v0 hlt) sl1) (constant ⟨2, ![T, H]⟩ .f32 0x00000000#32)))
            (matmul (pdot T K2 H wfC) none (shapeCast ⟨2, ![T, K2]⟩ v11 sc11)
              (extractStridedSlice ⟨2, ![K2, H]⟩ ![o2, 0] (truncf .bf16 v0 hlt) sl2) (constant ⟨2, ![T, H]⟩ .f32 0x00000000#32)))
            (broadcastTo ⟨2, ![T, H]⟩ (shapeCast ⟨2, ![1, H]⟩ v16 sc16) bc1)) (broadcast ⟨2, ![T, H]⟩ z)) hlt)
        (truncf .bf16 v23 hlt) (constant ⟨2, ![T, O]⟩ .f32 0x00000000#32))
        (broadcastTo ⟨2, ![T, O]⟩ (shapeCast ⟨2, ![1, O]⟩ v26 sc26) bc2)) (broadcast ⟨2, ![T, O]⟩ z) (ix2 r c)
      = lay (pre3 o1 o2 h0 h1 h2 (fun k => v2 (ix2 r k)) (fun k => v6 (ix2 r k)) (fun k => v11 (ix2 r k)) v0
          (fun h => v16 (ix2 (0 : Fin 1) h)) z) v23 (fun c => v26 (ix2 (0 : Fin 1) c)) z c := by
  rw [klay_apply]
  unfold lay
  refine congrArg (fun s => max (s + v26 (ix2 (0 : Fin 1) c)) z) (Finset.sum_congr rfl fun h _ => ?_)
  refine congrArg (· * v23 (ix2 h c)) ?_
  beta_reduce
  rw [truncf_apply, maximumf_apply, addf_apply, addf_apply, addf_apply,
    kband_apply 0 (by omega) wfA v2 (truncf .bf16 v0 hlt) sc2 sl0 r h,
    kband_apply o1 h1 wfB v6 (truncf .bf16 v0 hlt) sc6 sl1 r h,
    kband_apply o2 h2 wfC v11 (truncf .bf16 v0 hlt) sc11 sl2 r h, shapeCast_self, broadcastTo_1b_ab_apply]
  unfold pre3
  simp only [Nat.zero_add, truncf_apply, broadcast_apply]

/-- The whole kernel body with a two-piece input, read at (r, c). -/
theorem kernel2_apply {T K0 K1 K H O : ℕ} (o1 : ℕ) (h0 : K0 ≤ K) (h1 : o1 + K1 ≤ K)
    (wfA : DotDims.WF ⟨2, ![T, K0]⟩ ⟨2, ![K0, H]⟩ ⟨2, ![T, H]⟩ [1] [0] [0] [1] [] [])
    (wfB : DotDims.WF ⟨2, ![T, K1]⟩ ⟨2, ![K1, H]⟩ ⟨2, ![T, H]⟩ [1] [0] [0] [1] [] [])
    (wf2 : DotDims.WF ⟨2, ![T, H]⟩ ⟨2, ![H, O]⟩ ⟨2, ![T, O]⟩ [1] [0] [0] [1] [] [])
    (hlt : FTy.bf16.bits < FTy.f32.bits)
    (v0 : FVec Ideal ⟨2, ![K, H]⟩ .f32) (v2 : FVec Ideal ⟨2, ![T, K0]⟩ .bf16) (v6 : FVec Ideal ⟨2, ![T, K1]⟩ .bf16)
    (v16 : FVec Ideal ⟨2, ![1, H]⟩ .f32) (v23 : FVec Ideal ⟨2, ![H, O]⟩ .f32) (v26 : FVec Ideal ⟨2, ![1, O]⟩ .f32)
    (sc2 : (⟨2, ![T, K0]⟩ : Shape).ShapeCasts ⟨2, ![T, K0]⟩) (sc6 : (⟨2, ![T, K1]⟩ : Shape).ShapeCasts ⟨2, ![T, K1]⟩)
    (sl0 : (⟨2, ![K, H]⟩ : Shape).Slices ![0, 0] ⟨2, ![K0, H]⟩) (sl1 : (⟨2, ![K, H]⟩ : Shape).Slices ![o1, 0] ⟨2, ![K1, H]⟩)
    (sc16 : (⟨2, ![1, H]⟩ : Shape).ShapeCasts ⟨2, ![1, H]⟩) (bc1 : (⟨2, ![1, H]⟩ : Shape).Broadcasts ⟨2, ![T, H]⟩)
    (sc26 : (⟨2, ![1, O]⟩ : Shape).ShapeCasts ⟨2, ![1, O]⟩) (bc2 : (⟨2, ![1, O]⟩ : Shape).Broadcasts ⟨2, ![T, O]⟩)
    (z : Ideal .f32) (r : Fin T) (c : Fin O) :
    maximumf (addf (matmul (pdot T H O wf2) none
        (truncf .bf16 (maximumf (addf (addf
            (matmul (pdot T K0 H wfA) none (shapeCast ⟨2, ![T, K0]⟩ v2 sc2)
              (extractStridedSlice ⟨2, ![K0, H]⟩ ![0, 0] (truncf .bf16 v0 hlt) sl0) (constant ⟨2, ![T, H]⟩ .f32 0x00000000#32))
            (matmul (pdot T K1 H wfB) none (shapeCast ⟨2, ![T, K1]⟩ v6 sc6)
              (extractStridedSlice ⟨2, ![K1, H]⟩ ![o1, 0] (truncf .bf16 v0 hlt) sl1) (constant ⟨2, ![T, H]⟩ .f32 0x00000000#32)))
            (broadcastTo ⟨2, ![T, H]⟩ (shapeCast ⟨2, ![1, H]⟩ v16 sc16) bc1)) (broadcast ⟨2, ![T, H]⟩ z)) hlt)
        (truncf .bf16 v23 hlt) (constant ⟨2, ![T, O]⟩ .f32 0x00000000#32))
        (broadcastTo ⟨2, ![T, O]⟩ (shapeCast ⟨2, ![1, O]⟩ v26 sc26) bc2)) (broadcast ⟨2, ![T, O]⟩ z) (ix2 r c)
      = lay (pre2 o1 h0 h1 (fun k => v2 (ix2 r k)) (fun k => v6 (ix2 r k)) v0
          (fun h => v16 (ix2 (0 : Fin 1) h)) z) v23 (fun c => v26 (ix2 (0 : Fin 1) c)) z c := by
  rw [klay_apply]
  unfold lay
  refine congrArg (fun s => max (s + v26 (ix2 (0 : Fin 1) c)) z) (Finset.sum_congr rfl fun h _ => ?_)
  refine congrArg (· * v23 (ix2 h c)) ?_
  beta_reduce
  rw [truncf_apply, maximumf_apply, addf_apply, addf_apply,
    kband_apply 0 (by omega) wfA v2 (truncf .bf16 v0 hlt) sc2 sl0 r h,
    kband_apply o1 h1 wfB v6 (truncf .bf16 v0 hlt) sc6 sl1 r h, shapeCast_self, broadcastTo_1b_ab_apply]
  unfold pre2
  simp only [Nat.zero_add, truncf_apply, broadcast_apply]

/-! ## The reference's layers read at (R, c) -/

/-- A [n] bias placed as the [1, n] row reads, at (u, c), the bias at c. -/
theorem bias_row_apply {n : ℕ} {α : Type} (b : (⟨1, ![n]⟩ : Shape).Idx → α)
    (h : (⟨1, ![n]⟩ : Shape).BroadcastsInDim ⟨2, ![1, n]⟩ ![1]) (u : Fin 1) (c : Fin n) :
    broadcastInDim ⟨2, ![1, n]⟩ ![1] h b (ix2 u c) = b (ix1 c) := by
  refine broadcastInDim_apply _ h b _ (ix1 c) fun a => ?_
  match a with
  | ⟨0, _⟩ =>
    show c.val = if n = 1 then 0 else c.val
    split
    · have := c.isLt; omega
    · rfl

/-- A layer of the reference on one whole input array: product, bias broadcast down the rows, maximum with an array
    that holds z everywhere. -/
theorem rlay_apply {E H O : ℕ} (wf : DotDims.WF ⟨2, ![E, H]⟩ ⟨2, ![H, O]⟩ ⟨2, ![E, O]⟩ [1] [0] [0] [1] [] [])
    {φ ψ : FTy} (X : FVec Ideal ⟨2, ![E, H]⟩ φ) (W : FVec Ideal ⟨2, ![H, O]⟩ ψ) (b : FVec Ideal ⟨1, ![O]⟩ .f32)
    (hbr : (⟨1, ![O]⟩ : Shape).BroadcastsInDim ⟨2, ![1, O]⟩ ![1])
    (hbb : (⟨2, ![1, O]⟩ : Shape).BroadcastsInDim ⟨2, ![E, O]⟩ ![0, 1])
    (Z : FVec Ideal ⟨2, ![E, O]⟩ .f32) (z : Ideal .f32) (hZ : ∀ i, Z i = z) (R : Fin E) (c : Fin O) :
    maximumf (addf (Host.dotGeneral (pdot E H O wf) none X W)
        (broadcastInDim ⟨2, ![E, O]⟩ ![0, 1] hbb (broadcastInDim ⟨2, ![1, O]⟩ ![1] hbr b))) Z (ix2 R c)
      = lay (fun h => X (ix2 R h)) W (fun c => b (ix1 c)) z c := by
  rw [maximumf_apply, addf_apply, pdot_apply, broadcastInDim_oneRow_apply, bias_row_apply, hZ]
  rfl

/-- The product of a three-piece concatenation along the second axis with W, read at (R, h): the sum over the
    joined axis split at the two piece boundaries. -/
theorem cat3_dot_apply {E K0 K1 K2 K H : ℕ} (hK : K = K0 + K1 + K2)
    (wf : DotDims.WF ⟨2, ![E, K]⟩ ⟨2, ![K, H]⟩ ⟨2, ![E, H]⟩ [1] [0] [0] [1] [] [])
    (x0 : FVec Ideal ⟨2, ![E, K0]⟩ .f32) (x1 : FVec Ideal ⟨2, ![E, K1]⟩ .f32) (x2 : FVec Ideal ⟨2, ![E, K2]⟩ .f32)
    (W : FVec Ideal ⟨2, ![K, H]⟩ .f32)
    (hc : Shape.Concatenates [⟨2, ![E, K0]⟩, ⟨2, ![E, K1]⟩, ⟨2, ![E, K2]⟩] ⟨2, ![E, K]⟩ 1) (R : Fin E) (h : Fin H) :
    Host.dotGeneral (pdot E K H wf) none
        (concatenate ⟨2, ![E, K]⟩ 1 [⟨⟨2, ![E, K0]⟩, x0⟩, ⟨⟨2, ![E, K1]⟩, x1⟩, ⟨⟨2, ![E, K2]⟩, x2⟩] hc) W (ix2 R h)
      = ((∑ k : Fin K0, x0 (ix2 R k) * W (ix2 (⟨k.val, by have := k.isLt; omega⟩ : Fin K) h))
        + ∑ k : Fin K1, x1 (ix2 R k) * W (ix2 (⟨K0 + k.val, by have := k.isLt; omega⟩ : Fin K) h))
        + ∑ k : Fin K2, x2 (ix2 R k) * W (ix2 (⟨K0 + K1 + k.val, by have := k.isLt; omega⟩ : Fin K) h) := by
  subst hK
  rw [pdot_apply, Fin.sum_univ_add, Fin.sum_univ_add]
  refine congrArg₂ (· + ·) (congrArg₂ (· + ·) ?_ ?_) ?_
  · refine Finset.sum_congr rfl fun k _ => ?_
    refine congrArg₂ (· * ·) ?_ (congrArg W (congrArg (ix2 · h) (Fin.ext rfl)))
    refine concatenate_apply_piece (α := Ideal .f32) (t := ⟨2, ![E, K0 + K1 + K2]⟩) 1 [⟨⟨2, ![E, K0]⟩, x0⟩, ⟨⟨2, ![E, K1]⟩, x1⟩, ⟨⟨2, ![E, K2]⟩, x2⟩] hc _ 0 (by simp) ⟨2, ![E, K0]⟩ x0 rfl rfl 0 rfl (ix2 R k) (fun b => ?_) ?_
    · match b with
      | ⟨0, _⟩ => exact fun _ => rfl
      | ⟨1, _⟩ => exact fun hb => absurd rfl hb
    · exact Nat.zero_add _
  · refine Finset.sum_congr rfl fun k _ => ?_
    refine congrArg₂ (· * ·) ?_ (congrArg W (congrArg (ix2 · h) (Fin.ext rfl)))
    refine concatenate_apply_piece (α := Ideal .f32) (t := ⟨2, ![E, K0 + K1 + K2]⟩) 1 [⟨⟨2, ![E, K0]⟩, x0⟩, ⟨⟨2, ![E, K1]⟩, x1⟩, ⟨⟨2, ![E, K2]⟩, x2⟩] hc _ 1 (by simp) ⟨2, ![E, K1]⟩ x1 rfl rfl K0 rfl (ix2 R k) (fun b => ?_) ?_
    · match b with
      | ⟨0, _⟩ => exact fun _ => rfl
      | ⟨1, _⟩ => exact fun hb => absurd rfl hb
    · rfl
  · refine Finset.sum_congr rfl fun k _ => ?_
    refine congrArg₂ (· * ·) ?_ (congrArg W (congrArg (ix2 · h) (Fin.ext rfl)))
    refine concatenate_apply_piece (α := Ideal .f32) (t := ⟨2, ![E, K0 + K1 + K2]⟩) 1 [⟨⟨2, ![E, K0]⟩, x0⟩, ⟨⟨2, ![E, K1]⟩, x1⟩, ⟨⟨2, ![E, K2]⟩, x2⟩] hc _ 2 (by simp) ⟨2, ![E, K2]⟩ x2 rfl rfl (K0 + K1) ?_ (ix2 R k) (fun b => ?_) ?_
    · show K0 + (K1 + 0) = K0 + K1
      rfl
    · match b with
      | ⟨0, _⟩ => exact fun _ => rfl
      | ⟨1, _⟩ => exact fun hb => absurd rfl hb
    · rfl

/-- The same for two pieces. -/
theorem cat2_dot_apply {E K0 K1 K H : ℕ} (hK : K = K0 + K1)
    (wf : DotDims.WF ⟨2, ![E, K]⟩ ⟨2, ![K, H]⟩ ⟨2, ![E, H]⟩ [1] [0] [0] [1] [] [])
    (x0 : FVec Ideal ⟨2, ![E, K0]⟩ .f32) (x1 : FVec Ideal ⟨2, ![E, K1]⟩ .f32) (W : FVec Ideal ⟨2, ![K, H]⟩ .f32)
    (hc : Shape.Concatenates [⟨2, ![E, K0]⟩, ⟨2, ![E, K1]⟩] ⟨2, ![E, K]⟩ 1) (R : Fin E) (h : Fin H) :
    Host.dotGeneral (pdot E K H wf) none
        (concatenate ⟨2, ![E, K]⟩ 1 [⟨⟨2, ![E, K0]⟩, x0⟩, ⟨⟨2, ![E, K1]⟩, x1⟩] hc) W (ix2 R h)
      = (∑ k : Fin K0, x0 (ix2 R k) * W (ix2 (⟨k.val, by have := k.isLt; omega⟩ : Fin K) h))
        + ∑ k : Fin K1, x1 (ix2 R k) * W (ix2 (⟨K0 + k.val, by have := k.isLt; omega⟩ : Fin K) h) := by
  subst hK
  rw [pdot_apply, Fin.sum_univ_add]
  refine congrArg₂ (· + ·) ?_ ?_
  · refine Finset.sum_congr rfl fun k _ => ?_
    refine congrArg₂ (· * ·) ?_ (congrArg W (congrArg (ix2 · h) (Fin.ext rfl)))
    refine concatenate_apply_piece (α := Ideal .f32) (t := ⟨2, ![E, K0 + K1]⟩) 1 [⟨⟨2, ![E, K0]⟩, x0⟩, ⟨⟨2, ![E, K1]⟩, x1⟩] hc _ 0 (by simp) ⟨2, ![E, K0]⟩ x0 rfl rfl 0 rfl (ix2 R k) (fun b => ?_) ?_
    · match b with
      | ⟨0, _⟩ => exact fun _ => rfl
      | ⟨1, _⟩ => exact fun hb => absurd rfl hb
    · exact Nat.zero_add _
  · refine Finset.sum_congr rfl fun k _ => ?_
    refine congrArg₂ (· * ·) ?_ (congrArg W (congrArg (ix2 · h) (Fin.ext rfl)))
    refine concatenate_apply_piece (α := Ideal .f32) (t := ⟨2, ![E, K0 + K1]⟩) 1 [⟨⟨2, ![E, K0]⟩, x0⟩, ⟨⟨2, ![E, K1]⟩, x1⟩] hc _ 1 (by simp) ⟨2, ![E, K1]⟩ x1 rfl rfl K0 rfl (ix2 R k) (fun b => ?_) ?_
    · match b with
      | ⟨0, _⟩ => exact fun _ => rfl
      | ⟨1, _⟩ => exact fun hb => absurd rfl hb
    · rfl

/-- The reference's two layers on a three-piece concatenation, read at (R, c). -/
theorem ref3_apply {E K0 K1 K2 K H O : ℕ} (hK : K = K0 + K1 + K2)
    (wf1 : DotDims.WF ⟨2, ![E, K]⟩ ⟨2, ![K, H]⟩ ⟨2, ![E, H]⟩ [1] [0] [0] [1] [] [])
    (wf2 : DotDims.WF ⟨2, ![E, H]⟩ ⟨2, ![H, O]⟩ ⟨2, ![E, O]⟩ [1] [0] [0] [1] [] [])
    (x0 : FVec Ideal ⟨2, ![E, K0]⟩ .f32) (x1 : FVec Ideal ⟨2, ![E, K1]⟩ .f32) (x2 : FVec Ideal ⟨2, ![E, K2]⟩ .f32)
    (W1 : FVec Ideal ⟨2, ![K, H]⟩ .f32) (b1 : FVec Ideal ⟨1, ![H]⟩ .f32) (W2 : FVec Ideal ⟨2, ![H, O]⟩ .f32)
    (b2 : FVec Ideal ⟨1, ![O]⟩ .f32)
    (hc : Shape.Concatenates [⟨2, ![E, K0]⟩, ⟨2, ![E, K1]⟩, ⟨2, ![E, K2]⟩] ⟨2, ![E, K]⟩ 1)
    (hbr1 : (⟨1, ![H]⟩ : Shape).BroadcastsInDim ⟨2, ![1, H]⟩ ![1])
    (hbb1 : (⟨2, ![1, H]⟩ : Shape).BroadcastsInDim ⟨2, ![E, H]⟩ ![0, 1])
    (hbr2 : (⟨1, ![O]⟩ : Shape).BroadcastsInDim ⟨2, ![1, O]⟩ ![1])
    (hbb2 : (⟨2, ![1, O]⟩ : Shape).BroadcastsInDim ⟨2, ![E, O]⟩ ![0, 1])
    (Z1 : FVec Ideal ⟨2, ![E, H]⟩ .f32) (Z2 : FVec Ideal ⟨2, ![E, O]⟩ .f32) (z : Ideal .f32)
    (hZ1 : ∀ i, Z1 i = z) (hZ2 : ∀ i, Z2 i = z) (R : Fin E) (c : Fin O) :
    maximumf (addf (Host.dotGeneral (pdot E H O wf2) none
        (maximumf (addf (Host.dotGeneral (pdot E K H wf1) none
            (concatenate ⟨2, ![E, K]⟩ 1 [⟨⟨2, ![E, K0]⟩, x0⟩, ⟨⟨2, ![E, K1]⟩, x1⟩, ⟨⟨2, ![E, K2]⟩, x2⟩] hc) W1)
          (broadcastInDim ⟨2, ![E, H]⟩ ![0, 1] hbb1 (broadcastInDim ⟨2, ![1, H]⟩ ![1] hbr1 b1))) Z1) W2)
        (broadcastInDim ⟨2, ![E, O]⟩ ![0, 1] hbb2 (broadcastInDim ⟨2, ![1, O]⟩ ![1] hbr2 b2))) Z2 (ix2 R c)
      = lay (pre3 K0 (K0 + K1) (by omega) (by omega) (by omega) (fun k => x0 (ix2 R k)) (fun k => x1 (ix2 R k))
          (fun k => x2 (ix2 R k)) W1 (fun h => b1 (ix1 h)) z) W2 (fun c => b2 (ix1 c)) z c := by
  rw [rlay_apply wf2 _ W2 b2 hbr2 hbb2 Z2 z hZ2]
  unfold lay
  refine congrArg (fun s => max (s + b2 (ix1 c)) z) (Finset.sum_congr rfl fun h _ => ?_)
  refine congrArg (· * W2 (ix2 h c)) ?_
  beta_reduce
  rw [maximumf_apply, addf_apply, cat3_dot_apply hK, broadcastInDim_oneRow_apply, bias_row_apply, hZ1]
  rfl

/-- The reference's two layers on a two-piece concatenation, read at (R, c). -/
theorem ref2_apply {E K0 K1 K H O : ℕ} (hK : K = K0 + K1)
    (wf1 : DotDims.WF ⟨2, ![E, K]⟩ ⟨2, ![K, H]⟩ ⟨2, ![E, H]⟩ [1] [0] [0] [1] [] [])
    (wf2 : DotDims.WF ⟨2, ![E, H]⟩ ⟨2, ![H, O]⟩ ⟨2, ![E, O]⟩ [1] [0] [0] [1] [] [])
    (x0 : FVec Ideal ⟨2, ![E, K0]⟩ .f32) (x1 : FVec Ideal ⟨2, ![E, K1]⟩ .f32)
    (W1 : FVec Ideal ⟨2, ![K, H]⟩ .f32) (b1 : FVec Ideal ⟨1, ![H]⟩ .f32) (W2 : FVec Ideal ⟨2, ![H, O]⟩ .f32)
    (b2 : FVec Ideal ⟨1, ![O]⟩ .f32)
    (hc : Shape.Concatenates [⟨2, ![E, K0]⟩, ⟨2, ![E, K1]⟩] ⟨2, ![E, K]⟩ 1)
    (hbr1 : (⟨1, ![H]⟩ : Shape).BroadcastsInDim ⟨2, ![1, H]⟩ ![1])
    (hbb1 : (⟨2, ![1, H]⟩ : Shape).BroadcastsInDim ⟨2, ![E, H]⟩ ![0, 1])
    (hbr2 : (⟨1, ![O]⟩ : Shape).BroadcastsInDim ⟨2, ![1, O]⟩ ![1])
    (hbb2 : (⟨2, ![1, O]⟩ : Shape).BroadcastsInDim ⟨2, ![E, O]⟩ ![0, 1])
    (Z1 : FVec Ideal ⟨2, ![E, H]⟩ .f32) (Z2 : FVec Ideal ⟨2, ![E, O]⟩ .f32) (z : Ideal .f32)
    (hZ1 : ∀ i, Z1 i = z) (hZ2 : ∀ i, Z2 i = z) (R : Fin E) (c : Fin O) :
    maximumf (addf (Host.dotGeneral (pdot E H O wf2) none
        (maximumf (addf (Host.dotGeneral (pdot E K H wf1) none
            (concatenate ⟨2, ![E, K]⟩ 1 [⟨⟨2, ![E, K0]⟩, x0⟩, ⟨⟨2, ![E, K1]⟩, x1⟩] hc) W1)
          (broadcastInDim ⟨2, ![E, H]⟩ ![0, 1] hbb1 (broadcastInDim ⟨2, ![1, H]⟩ ![1] hbr1 b1))) Z1) W2)
        (broadcastInDim ⟨2, ![E, O]⟩ ![0, 1] hbb2 (broadcastInDim ⟨2, ![1, O]⟩ ![1] hbr2 b2))) Z2 (ix2 R c)
      = lay (pre2 K0 (by omega) (by omega) (fun k => x0 (ix2 R k)) (fun k => x1 (ix2 R k))
          W1 (fun h => b1 (ix1 h)) z) W2 (fun c => b2 (ix1 c)) z c := by
  rw [rlay_apply wf2 _ W2 b2 hbr2 hbb2 Z2 z hZ2]
  unfold lay
  refine congrArg (fun s => max (s + b2 (ix1 c)) z) (Finset.sum_congr rfl fun h _ => ?_)
  refine congrArg (· * W2 (ix2 h c)) ?_
  beta_reduce
  rw [maximumf_apply, addf_apply, cat2_dot_apply hK, broadcastInDim_oneRow_apply, bias_row_apply, hZ1]
  rfl

/-! ## The whole-array functions -/

/-- The two-layer perceptron applied to every row of three row-aligned arrays: row R of the result depends on row R
    of each piece alone. -/
def mlp3 {E K0 K1 K2 K H O : ℕ} (o1 o2 : ℕ) (h0 : K0 ≤ K) (h1 : o1 + K1 ≤ K) (h2 : o2 + K2 ≤ K)
    (x0 : (⟨2, ![E, K0]⟩ : Shape).Idx → EReal) (x1 : (⟨2, ![E, K1]⟩ : Shape).Idx → EReal)
    (x2 : (⟨2, ![E, K2]⟩ : Shape).Idx → EReal) (W1 : (⟨2, ![K, H]⟩ : Shape).Idx → EReal) (b1 : Fin H → EReal)
    (W2 : (⟨2, ![H, O]⟩ : Shape).Idx → EReal) (b2 : Fin O → EReal) (z : EReal) :
    (⟨2, ![E, O]⟩ : Shape).Idx → EReal :=
  fun i => lay (pre3 o1 o2 h0 h1 h2 (fun k => x0 (ix2 (i 0 : Fin E) k)) (fun k => x1 (ix2 (i 0 : Fin E) k))
    (fun k => x2 (ix2 (i 0 : Fin E) k)) W1 b1 z) W2 b2 z (i 1 : Fin O)

/-- The same on two pieces. -/
def mlp2 {E K0 K1 K H O : ℕ} (o1 : ℕ) (h0 : K0 ≤ K) (h1 : o1 + K1 ≤ K)
    (x0 : (⟨2, ![E, K0]⟩ : Shape).Idx → EReal) (x1 : (⟨2, ![E, K1]⟩ : Shape).Idx → EReal)
    (W1 : (⟨2, ![K, H]⟩ : Shape).Idx → EReal) (b1 : Fin H → EReal)
    (W2 : (⟨2, ![H, O]⟩ : Shape).Idx → EReal) (b2 : Fin O → EReal) (z : EReal) :
    (⟨2, ![E, O]⟩ : Shape).Idx → EReal :=
  fun i => lay (pre2 o1 h0 h1 (fun k => x0 (ix2 (i 0 : Fin E) k)) (fun k => x1 (ix2 (i 0 : Fin E) k)) W1 b1 z)
    W2 b2 z (i 1 : Fin O)

/-- A maximum with z of a value that is already a maximum with z is that value. -/
theorem max_max_self (a z : EReal) : max (max a z) z = max a z := max_eq_left (le_max_right a z)

end Cert.MlpRows

end
-- ==== Proof.Chunk.lean ====
/-
  One chunk of the kernel body as a pure function, and what it computes on the extended reals.

  The body cuts its 32 encoder frames into four chunks of 8. For a chunk starting at frame `o` it takes rows `o … o+7` of
  the encoder projection, adds to each of them every one of the 64 rows of the decoder projection and the hidden bias,
  applies `tanh`, lays the 8 × 64 rows out as a 512-row matrix, multiplies by the transposed output weights, adds the output
  bias, and takes the logarithm of the softmax of every row. Row `r·64 + u` of the 512-row matrix is the pair (frame
  `o + r`, decoder position `u`), so entry `(r, u, v)` of the chunk is the log-softmax at `v` of the row of scores of that
  pair: `Cert.Joint.lsm (Cert.Joint.logitRow …)`.
-/
import proofs.«152257_j26439818674455_2_alg».proof.Proof.Gen.KernelIdeal.Skeleton
import proofs.«152257_j26439818674455_2_alg».proof.Proof.Spec
import proofs.«152257_j26439818674455_2_alg».proof.Proof.LibReduceInf
import proofs.«152257_j26439818674455_2_alg».proof.Proof.LibLayoutRank3
import proofs.«152257_j26439818674455_2_alg».proof.Proof.LibFlattenRows
import proofs.«152257_j26439818674455_2_alg».proof.Proof.LibLayoutCols
import proofs.«152257_j26439818674455_2_alg».proof.Proof.LibMlpRows
import Idealize.ShloMosaic.Lib.ValueLayout
import Idealize.ShloMosaic.Lib.Pipeline.Value
import Idealize.ShloMosaic.PureOps.Ideal.Laws

noncomputable section

namespace Cert.KernelIdeal.Chunk

open Cert.KernelIdeal Cert.KernelIdeal.Gen Idealize.ShloMosaic Idealize.ShloMosaic.ValueIdx

variable {F : FTy → Type} [FloatOps F]

/-! ## The chunk, in three stages -/

/-- The hidden activations of the chunk starting at frame `o`, as a 512-row matrix (row `r·64 + u`). -/
def hidden (o : ℕ) (hs : S32x512.Slices ![o, 0] S8x512) (v6 : FVec F S32x512 .f32) (v10 : Vec F S64x512 .f32)
    (v12 : FVec F S1x512 .f32) : FVec F S512x512 .f32 :=
  shapeCast S512x512 (tanh (addf (addf
    (broadcastTo S8x64x512 (shapeCast S8x1x512 (extractStridedSlice S8x512 ![o, 0] v6 hs) shapeCasts_S8x512_S8x1x512) broadcasts_S8x1x512_S8x64x512)
    (broadcastTo S8x64x512 (shapeCast S1x64x512 v10 shapeCasts_S64x512_S1x64x512) broadcasts_S1x64x512_S8x64x512))
    (broadcastTo S8x64x512 (shapeCast S1x1x512 v12 shapeCasts_S1x512_S1x1x512) broadcasts_S1x1x512_S8x64x512))) shapeCasts_S8x64x512_S512x512

/-- The scores: the hidden activations times the transposed output weights, plus the output bias. -/
def logits (h : FVec F S512x512 .f32) (v14 : FVec F S1024x512 .bf16) (v16 : FVec F S1x1024 .f32) : FVec F S512x1024 .f32 :=
  addf (matmul dot_S512x512_S512x1024_S512x1024_1_0_0_1_n_n none (truncf .bf16 h bitsLt_bf16_f32)
      (transpose S512x1024 [1, 0] v14 transposes_S1024x512_p1_0_S512x1024) (constant S512x1024 .f32 0x00000000#32))
    (broadcastTo S512x1024 v16 broadcasts_S1x1024_S512x1024)

/-- Every row with its maximum subtracted. -/
def shifted (x : FVec F S512x1024 .f32) : FVec F S512x1024 .f32 :=
  subf x (broadcastTo S512x1024 (shapeCast S512x1 (multiReduction .maximumf [1] S512 x 0xFF800000#32 reduces_S512x1024_S512 (.inl rfl) rfl) shapeCasts_S512_S512x1) broadcasts_S512x1_S512x1024)

/-- The logarithm of the softmax of every row. -/
def lsmRows (x : FVec F S512x1024 .f32) : FVec F S512x1024 .f32 :=
  subf (shifted x) (broadcastTo S512x1024 (log (shapeCast S512x1 (multiReduction .add [1] S512 (exp (shifted x)) 0x00000000#32 reduces_S512x1024_S512 (.inl rfl) rfl) shapeCasts_S512_S512x1)) broadcasts_S512x1_S512x1024)

/-- The chunk starting at frame `o`: entry `(r, u, v)`. -/
def chunk (o : ℕ) (hs : S32x512.Slices ![o, 0] S8x512) (v6 : FVec F S32x512 .f32) (v10 : Vec F S64x512 .f32)
    (v12 : FVec F S1x512 .f32) (v14 : FVec F S1024x512 .bf16) (v16 : FVec F S1x1024 .f32) : FVec F S8x64x1024 .f32 :=
  shapeCast S8x64x1024 (lsmRows (logits (hidden o hs v6 v10 v12) v14 v16)) shapeCasts_S512x1024_S8x64x1024

/-! ## The body's four stored values are the four chunks -/

theorem pay14_eq (v6 : FVec F S32x512 .f32) (v10 : Vec F S64x512 .f32) (v12 : FVec F S1x512 .f32) (v14 : FVec F S1024x512 .bf16)
    (v16 : FVec F S1x1024 .f32) : k0_pay14 v6 v10 v12 v14 v16 = chunk 24 slices_S32x512_o24_0_S8x512 v6 v10 v12 v14 v16 := rfl

theorem pay10_eq (v6 : FVec F S32x512 .f32) (v10 : Vec F S64x512 .f32) (v12 : FVec F S1x512 .f32) (v14 : FVec F S1024x512 .bf16)
    (v16 : FVec F S1x1024 .f32) : k0_pay10 v6 v10 v12 v14 v16
      = shapeCast S1x8x64x1024 (chunk 8 slices_S32x512_o8_0_S8x512 v6 v10 v12 v14 v16) shapeCasts_S8x64x1024_S1x8x64x1024 := rfl

theorem pay13_eq (v6 : FVec F S32x512 .f32) (v10 : Vec F S64x512 .f32) (v12 : FVec F S1x512 .f32) (v14 : FVec F S1024x512 .bf16)
    (v16 : FVec F S1x1024 .f32) : k0_pay13 v14 v16 (k0_pay11 v6 v10) (k0_pay12 v12)
      = shapeCast S1x8x64x1024 (chunk 16 slices_S32x512_o16_0_S8x512 v6 v10 v12 v14 v16) shapeCasts_S8x64x1024_S1x8x64x1024 := rfl

theorem pay9_eq (v0 : Vec F S1x32x256 .f32) (v3 : Vec F S512x256 .bf16) (v10 : Vec F S64x512 .f32) (v11 : Vec F S1x512 .f32)
    (v13 : Vec F S1024x512 .bf16) (v15 : Vec F S1x1024 .f32) :
    k0_pay9 (k0_pay7 v0 v3 v10 v11 v13 v15) (k0_pay8 v0 v3 v10 v11 v13 v15)
      = shapeCast S1x8x64x1024 (chunk 0 slices_S32x512_o0_0_S8x512 (k0_pay2 v0 v3) v10 (k0_pay4 v11) (k0_pay5 v13) (k0_pay6 v15))
          shapeCasts_S8x64x1024_S1x8x64x1024 := rfl

theorem pay1_eq (v133 : FVec F S8x64x1024 .f32) :
    k0_pay1 v133 = shapeCast S1x8x64x1024 v133 shapeCasts_S8x64x1024_S1x8x64x1024 := rfl

/-! ## The stages at an index, on the extended reals -/

/-- Row `r·64 + u` of the hidden activations is `tanh` of frame `o + r`'s encoder projection plus position `u`'s decoder
    projection plus the bias. -/
theorem hidden_apply (o : ℕ) (hs : S32x512.Slices ![o, 0] S8x512) (v6 : FVec Ideal S32x512 .f32) (v10 : FVec Ideal S64x512 .f32)
    (v12 : FVec Ideal S1x512 .f32) (r : Fin 8) (u : Fin 64) (j : Fin 512) (k : Fin 512) (hk : k.val = r.val * 64 + u.val)
    (q : Fin 32) (hq : q.val = o + r.val) :
    hidden o hs v6 v10 v12 (ix2 k j) = Ideal.tanh (v6 (ix2 q j) + v10 (ix2 u j) + v12 (ix2 (0 : Fin 1) j)) := by
  unfold hidden
  rw [Cert.LibFlattenRows.shapeCast_abc_nc_apply _ _ r u j k hk]
  show Ideal.tanh (_ + _ + _) = _
  rw [Cert.Lib.LayoutRank3.broadcastTo_a1c_abc_apply, Cert.Lib.LayoutRank3.shapeCast_ab_a1b_apply,
    slice2_axis0_apply o v6 hs r j q hq, Cert.Lib.LayoutRank3.broadcastTo_1bc_abc_apply, shapeCast_ab_1ab_apply,
    Cert.Lib.LayoutRank3.broadcastTo_11c_abc_apply, shapeCast_ab_1ab_apply]

/-- A score: the row of hidden activations against a row of the output weights, plus the bias. -/
theorem logits_apply (h : FVec Ideal S512x512 .f32) (v14 : FVec Ideal S1024x512 .bf16) (v16 : FVec Ideal S1x1024 .f32)
    (k : Fin 512) (v : Fin 1024) :
    logits h v14 v16 (ix2 k v) = (∑ j : Fin 512, h (ix2 k j) * v14 (ix2 v j)) + v16 (ix2 (0 : Fin 1) v) := by
  unfold logits
  rw [addf_apply, show dot_S512x512_S512x1024_S512x1024_1_0_0_1_n_n
      = Cert.MlpRows.pdot 512 512 1024 dot_S512x512_S512x1024_S512x1024_1_0_0_1_n_n_wf from rfl,
    Cert.MlpRows.pmatmul_apply, broadcastTo_1b_ab_apply]
  refine congrArg (· + _) (Finset.sum_congr rfl fun j _ => ?_)
  rw [truncf_apply, transpose_ix2_apply]

/-- The maximum of row `k`. -/
theorem rowMax_apply (x : FVec Ideal S512x1024 .f32) (k : Fin 512) :
    multiReduction (F := Ideal) .maximumf [1] S512 x 0xFF800000#32 reduces_S512x1024_S512 (.inl rfl) rfl (ix1 k)
      = ⨆ v : Fin 1024, x (ix2 k v) := by
  rw [Cert.LibReduceInf.multiReduction_maximumf_single]
  exact iSup_congr fun v => congrArg x (funext fun ax => Fin.ext (by
    match ax with
    | ⟨0, _⟩ => rfl
    | ⟨1, _⟩ => rfl))

/-- The sum of row `k`. -/
theorem rowSum_apply (y : FVec Ideal S512x1024 .f32) (k : Fin 512) :
    multiReduction (F := Ideal) .add [1] S512 y 0x00000000#32 reduces_S512x1024_S512 (.inl rfl) rfl (ix1 k)
      = ∑ v : Fin 1024, y (ix2 k v) :=
  Cert.Lib.LayoutCols.rowSum_apply y 0x00000000#32 reduces_S512x1024_S512 (.inl rfl) rfl k

theorem shifted_apply (x : FVec Ideal S512x1024 .f32) (k : Fin 512) (v : Fin 1024) :
    shifted x (ix2 k v) = x (ix2 k v) - ⨆ v' : Fin 1024, x (ix2 k v') := by
  unfold shifted
  rw [subf_apply, Cert.Lib.LayoutCols.broadcastTo_a1_ab_apply, Cert.Lib.LayoutCols.shapeCast_a_a1_apply, rowMax_apply]

/-- Row `k` of `lsmRows x` is the log-softmax of row `k` of `x`. -/
theorem lsmRows_apply (x : FVec Ideal S512x1024 .f32) (k : Fin 512) (v : Fin 1024) :
    lsmRows x (ix2 k v) = Cert.Joint.lsm (fun v' => x (ix2 k v')) v := by
  unfold lsmRows
  rw [subf_apply, shifted_apply, Cert.Lib.LayoutCols.broadcastTo_a1_ab_apply]
  show _ - Ideal.log (shapeCast S512x1 _ _ (ix2 k (0 : Fin 1))) = _
  rw [Cert.Lib.LayoutCols.shapeCast_a_a1_apply, rowSum_apply]
  unfold Cert.Joint.lsm
  refine congrArg (fun s => _ - Ideal.log s) (Finset.sum_congr rfl fun v' _ => ?_)
  show Ideal.exp (shifted x (ix2 k v')) = _
  rw [shifted_apply]

/-- Entry `(r, u, v)` of the chunk starting at frame `o`: the log-softmax at `v` of the scores of frame `o + r` and decoder
    position `u`. -/
theorem chunk_apply (o : ℕ) (hs : S32x512.Slices ![o, 0] S8x512) (v6 : FVec Ideal S32x512 .f32) (v10 : FVec Ideal S64x512 .f32)
    (v12 : FVec Ideal S1x512 .f32) (v14 : FVec Ideal S1024x512 .bf16) (v16 : FVec Ideal S1x1024 .f32)
    (r : Fin 8) (u : Fin 64) (v : Fin 1024) (q : Fin 32) (hq : q.val = o + r.val) :
    chunk o hs v6 v10 v12 v14 v16 (ix3 r u v)
      = Cert.Joint.lsm (Cert.Joint.logitRow (fun j => v6 (ix2 q j)) (fun j => v10 (ix2 u j)) (fun j => v12 (ix2 (0 : Fin 1) j))
          (fun v j => v14 (ix2 v j)) (fun v => v16 (ix2 (0 : Fin 1) v))) v := by
  unfold chunk
  rw [Cert.LibFlattenRows.shapeCast_nc_abc_apply _ _ r u v
    (⟨r.val * 64 + u.val, by have := r.isLt; have := u.isLt; omega⟩ : Fin 512) rfl, lsmRows_apply]
  refine congrArg (fun f => Cert.Joint.lsm f v) (funext fun v' => ?_)
  rw [logits_apply]
  unfold Cert.Joint.logitRow
  refine congrArg (· + _) (Finset.sum_congr rfl fun j _ => ?_)
  rw [hidden_apply o hs v6 v10 v12 r u j _ rfl q hq]

end Cert.KernelIdeal.Chunk

end
-- ==== Proof.Block.lean ====
/-
  What one grid point leaves in the output's staging buffer and in the carried scratch.

  At every grid point the body stores the four chunks of its 32 frames into rows 0–7, 8–15, 16–23 and 24–31 of the output
  block; at the first frame tile of a batch it first stores the decoder projection into the scratch and reads it back, at
  the other points it reads what the scratch already holds. Either way the block is one function of the frames' block, the
  encoder weights, the scratch contents `S` the chunks read, the two biases and the output weights: entry `(0, q, u, v)` is the
  log-softmax at `v` of the scores of frame `q` and decoder position `u` (`blockVal`).
-/
import proofs.«152257_j26439818674455_2_alg».proof.Proof.Gen.KernelIdeal.Frame
import proofs.«152257_j26439818674455_2_alg».proof.Proof.Chunk
import Idealize.ShloMosaic.Lib.Pipeline.Value
import Idealize.ShloMosaic.Lib.Tactic

set_option maxRecDepth 16384

noncomputable section

namespace Cert.KernelIdeal.Block

open Cert.KernelIdeal Cert.KernelIdeal.Gen Cert.KernelIdeal.Chunk Idealize.ShloMosaic Idealize.ShloMosaic.TcCoe
open Idealize.ShloMosaic.Tactic Idealize.SL.Sem Idealize.ShloMosaic.ValueIdx

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The four stores of one grid point, last first: chunk `o` into rows `o … o+7` of the block. -/
def pieces (x0 : Vec F S1x32x256 .f32) (x2 : Vec F S512x256 .bf16) (S : Vec F S64x512 .f32) (x4 : Vec F S1x512 .f32)
    (x5 : Vec F S1024x512 .bf16) (x6 : Vec F S1x1024 .f32) : List (View.Piece (Elt F) S1x32x64x1024 .f32) :=
  [⟨Rect.unit ![0, 24, 0, 0] S1x8x64x1024.size inb_S1x32x64x1024_S1x8x64x1024_0_24_0_0,
      shapeCast S1x8x64x1024 (chunk 24 slices_S32x512_o24_0_S8x512 (k0_pay2 x0 x2) S (k0_pay4 x4) (k0_pay5 x5) (k0_pay6 x6))
        shapeCasts_S8x64x1024_S1x8x64x1024⟩,
    ⟨Rect.unit ![0, 16, 0, 0] S1x8x64x1024.size inb_S1x32x64x1024_S1x8x64x1024_0_16_0_0,
      shapeCast S1x8x64x1024 (chunk 16 slices_S32x512_o16_0_S8x512 (k0_pay2 x0 x2) S (k0_pay4 x4) (k0_pay5 x5) (k0_pay6 x6))
        shapeCasts_S8x64x1024_S1x8x64x1024⟩,
    ⟨Rect.unit ![0, 8, 0, 0] S1x8x64x1024.size inb_S1x32x64x1024_S1x8x64x1024_0_8_0_0,
      shapeCast S1x8x64x1024 (chunk 8 slices_S32x512_o8_0_S8x512 (k0_pay2 x0 x2) S (k0_pay4 x4) (k0_pay5 x5) (k0_pay6 x6))
        shapeCasts_S8x64x1024_S1x8x64x1024⟩,
    ⟨Rect.unit ![0, 0, 0, 0] S1x8x64x1024.size inb_S1x32x64x1024_S1x8x64x1024_0_0_0_0,
      shapeCast S1x8x64x1024 (chunk 0 slices_S32x512_o0_0_S8x512 (k0_pay2 x0 x2) S (k0_pay4 x4) (k0_pay5 x5) (k0_pay6 x6))
        shapeCasts_S8x64x1024_S1x8x64x1024⟩]

/-- At the first frame tile of a batch the body's stores into the output block are the four chunks, read off the decoder
    projection it has just stored. -/
theorem runA_pieces (c : Dev nD) (i : grid0.Coords) (arg2 : Memref sig .tc .vmem S1x32x256 .f32) (harg2 : arg2.IsWhole) (arg3 : Memref sig .tc .vmem S1x64x256 .f32) (harg3 : arg3.IsWhole) (arg4 : Memref sig .tc .vmem S512x256 .bf16) (harg4 : arg4.IsWhole) (arg5 : Memref sig .tc .vmem S512x256 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x1024 .f32) (harg8 : arg8.IsWhole) (arg9 : Memref sig .tc .vmem S1x32x64x1024 .f32) (harg9 : arg9.IsWhole) (arg10 : Memref sig .tc .vmem S64x512 .f32) (harg10 : arg10.IsWhole) (hc0 : cond0_0 i) (x0 : Vec F S1x32x256 .f32) (x1 : Vec F S1x64x256 .f32) (x2 : Vec F S512x256 .bf16) (x3 : Vec F S512x256 .bf16) (x4 : Vec F S1x512 .f32) (x5 : Vec F S1024x512 .bf16) (x6 : Vec F S1x1024 .f32) :
    (kernelRun0_A c i arg2 harg2 arg3 harg3 arg4 harg4 arg5 harg5 arg6 harg6 arg7 harg7 arg8 harg8 arg9 harg9 arg10 harg10 hc0 x0 x1 x2 x3 x4 x5 x6).1 = pieces x0 x2 (k0_pay3 x1 x3) x4 x5 x6 := by
  unfold kernelRun0_A
  dsimp only
  sl_unfold_words
  rw [View.readCov_unit_zero (S := S64x512) _ hz2]
  simp only [View.readAt_eq_ld, harg2.read_unread, harg3.read_unread, harg4.read_unread, harg5.read_unread, harg6.read_unread, harg7.read_unread, harg8.read_unread, harg10.read_unread, View.ld_unit_zero (S := S1x32x256) hz3, View.ld_unit_zero (S := S1x64x256) hz3, View.ld_unit_zero (S := S512x256) hz2, View.ld_unit_zero (S := S1x512) hz2, View.ld_unit_zero (S := S1024x512) hz2, View.ld_unit_zero (S := S1x1024) hz2, View.ld_unit_zero (S := S64x512) hz2]
  rw [pay1_eq, pay14_eq, pay13_eq, pay10_eq, pay9_eq]
  rfl

/-- … and its one store into the scratch is the decoder projection. -/
theorem runA_scratch (c : Dev nD) (i : grid0.Coords) (arg2 : Memref sig .tc .vmem S1x32x256 .f32) (harg2 : arg2.IsWhole) (arg3 : Memref sig .tc .vmem S1x64x256 .f32) (harg3 : arg3.IsWhole) (arg4 : Memref sig .tc .vmem S512x256 .bf16) (harg4 : arg4.IsWhole) (arg5 : Memref sig .tc .vmem S512x256 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x1024 .f32) (harg8 : arg8.IsWhole) (arg9 : Memref sig .tc .vmem S1x32x64x1024 .f32) (harg9 : arg9.IsWhole) (arg10 : Memref sig .tc .vmem S64x512 .f32) (harg10 : arg10.IsWhole) (hc0 : cond0_0 i) (x0 : Vec F S1x32x256 .f32) (x1 : Vec F S1x64x256 .f32) (x2 : Vec F S512x256 .bf16) (x3 : Vec F S512x256 .bf16) (x4 : Vec F S1x512 .f32) (x5 : Vec F S1024x512 .bf16) (x6 : Vec F S1x1024 .f32) :
    sout0_A_0 c i arg2 harg2 arg3 harg3 arg4 harg4 arg5 harg5 arg6 harg6 arg7 harg7 arg8 harg8 arg9 harg9 arg10 harg10 hc0 x0 x1 x2 x3 x4 x5 x6 = k0_pay3 x1 x3 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, View.ld_unit_zero (S := S1x32x256) hz3, View.ld_unit_zero (S := S1x64x256) hz3, View.ld_unit_zero (S := S512x256) hz2, View.ld_unit_zero (S := S1x512) hz2, View.ld_unit_zero (S := S1024x512) hz2, View.ld_unit_zero (S := S1x1024) hz2, View.ld_unit_zero (S := S64x512) hz2]

/-- At the other points the stores are the four chunks read off what the scratch holds. -/
theorem runB_pieces (c : Dev nD) (i : grid0.Coords) (arg2 : Memref sig .tc .vmem S1x32x256 .f32) (harg2 : arg2.IsWhole) (arg3 : Memref sig .tc .vmem S1x64x256 .f32) (harg3 : arg3.IsWhole) (arg4 : Memref sig .tc .vmem S512x256 .bf16) (harg4 : arg4.IsWhole) (arg5 : Memref sig .tc .vmem S512x256 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x1024 .f32) (harg8 : arg8.IsWhole) (arg9 : Memref sig .tc .vmem S1x32x64x1024 .f32) (harg9 : arg9.IsWhole) (arg10 : Memref sig .tc .vmem S64x512 .f32) (harg10 : arg10.IsWhole) (hc0 : ¬cond0_0 i) (x0 : Vec F S1x32x256 .f32) (x1 : Vec F S1x64x256 .f32) (x2 : Vec F S512x256 .bf16) (x3 : Vec F S512x256 .bf16) (x4 : Vec F S1x512 .f32) (x5 : Vec F S1024x512 .bf16) (x6 : Vec F S1x1024 .f32) (xs0 : Vec F S64x512 .f32) :
    (kernelRun0_B c i arg2 harg2 arg3 harg3 arg4 harg4 arg5 harg5 arg6 harg6 arg7 harg7 arg8 harg8 arg9 harg9 arg10 harg10 hc0 x0 x1 x2 x3 x4 x5 x6 xs0).1 = pieces x0 x2 xs0 x4 x5 x6 := by
  unfold kernelRun0_B
  dsimp only
  sl_unfold_words
  simp only [View.readAt_eq_ld, harg2.read_unread, harg3.read_unread, harg4.read_unread, harg5.read_unread, harg6.read_unread, harg7.read_unread, harg8.read_unread, harg10.read_unread, View.ld_unit_zero (S := S1x32x256) hz3, View.ld_unit_zero (S := S1x64x256) hz3, View.ld_unit_zero (S := S512x256) hz2, View.ld_unit_zero (S := S1x512) hz2, View.ld_unit_zero (S := S1024x512) hz2, View.ld_unit_zero (S := S1x1024) hz2, View.ld_unit_zero (S := S64x512) hz2]
  rw [pay1_eq, pay14_eq, pay13_eq, pay10_eq, pay9_eq]
  rfl

/-! ## The block as one function, on the extended reals -/

/-- Entry `(0, q, u, v)` of a point's output block: the log-softmax at `v` of the scores of the block's frame `q` and
    decoder position `u`, from the encoder projection `P` of the block's frames and the decoder projection `S`. -/
def blockVal (P : FVec Ideal S32x512 .f32) (S : FVec Ideal S64x512 .f32) (b1 : FVec Ideal S1x512 .f32)
    (W2 : FVec Ideal S1024x512 .bf16) (b2 : FVec Ideal S1x1024 .f32) : S1x32x64x1024.Idx → EReal := fun y =>
  Cert.Joint.lsm (Cert.Joint.logitRow (fun j => P (ix2 (y 1) j)) (fun j => S (ix2 (y 2) j)) (fun j => b1 (ix2 (0 : Fin 1) j))
    (fun v j => W2 (ix2 v j)) (fun v => b2 (ix2 (0 : Fin 1) v))) (y 3)

/-- The chunk stored into rows `o … o+7` is the block's function on those rows. -/
theorem piece_agree (o : ℕ) (hs : S32x512.Slices ![o, 0] S8x512)
    (inb : ∀ a, (![0, o, 0, 0] : Fin 4 → ℕ) a + S1x8x64x1024.size a ≤ S1x32x64x1024.size a)
    (P : FVec Ideal S32x512 .f32) (S : FVec Ideal S64x512 .f32) (b1 : FVec Ideal S1x512 .f32)
    (W2 : FVec Ideal S1024x512 .bf16) (b2 : FVec Ideal S1x1024 .f32) (x : S1x8x64x1024.Idx) :
    shapeCast S1x8x64x1024 (chunk o hs P S b1 W2 b2) shapeCasts_S8x64x1024_S1x8x64x1024 x
      = blockVal P S b1 W2 b2 ((Rect.unit (s := S1x32x64x1024) ![0, o, 0, 0] S1x8x64x1024.size inb).emb x) := by
  obtain ⟨a, r, u, v, rfl⟩ : ∃ (a : Fin 1) (r : Fin 8) (u : Fin 64) (v : Fin 1024), x = ix4 a r u v :=
    ⟨x 0, x 1, x 2, x 3, eq_ix4 x⟩
  have h8 : o + 8 ≤ 32 := inb 1
  have hq : o + r.val < 32 := by have := r.isLt; omega
  rw [shapeCast_abc_1abc_apply, chunk_apply o hs P S b1 W2 b2 r u v ⟨o + r.val, hq⟩ rfl]
  have key : ∀ (q q' : Fin 32) (u u' : Fin 64) (v v' : Fin 1024), q = q' → u = u' → v = v' →
      Cert.Joint.lsm (Cert.Joint.logitRow (fun j => P (ix2 q j)) (fun j => S (ix2 u j)) (fun j => b1 (ix2 (0 : Fin 1) j))
        (fun v j => W2 (ix2 v j)) (fun v => b2 (ix2 (0 : Fin 1) v))) v
      = Cert.Joint.lsm (Cert.Joint.logitRow (fun j => P (ix2 q' j)) (fun j => S (ix2 u' j)) (fun j => b1 (ix2 (0 : Fin 1) j))
        (fun v j => W2 (ix2 v j)) (fun v => b2 (ix2 (0 : Fin 1) v))) v' := by
    rintro _ _ _ _ _ _ rfl rfl rfl; rfl
  refine key _ _ _ _ _ _ (Fin.ext ?_) (Fin.ext ?_) (Fin.ext ?_)
  · show o + r.val = o + 1 * r.val; omega
  · show u.val = 0 + 1 * u.val; omega
  · show v.val = 0 + 1 * v.val; omega

/-- Every one of the four stores agrees with the block's function. -/
theorem pieces_agree (x0 : FVec Ideal S1x32x256 .f32) (x2 : FVec Ideal S512x256 .bf16) (S : FVec Ideal S64x512 .f32)
    (x4 : FVec Ideal S1x512 .f32) (x5 : FVec Ideal S1024x512 .bf16) (x6 : FVec Ideal S1x1024 .f32) :
    ∀ p ∈ pieces (F := Ideal) x0 x2 S x4 x5 x6, ∀ x : p.1.shape.Idx,
      p.2 x = blockVal (k0_pay2 x0 x2) S (k0_pay4 x4) (k0_pay5 x5) (k0_pay6 x6) (p.1.emb x) := by
  intro p hp
  simp only [pieces, List.mem_cons, List.not_mem_nil, or_false] at hp
  rcases hp with rfl | rfl | rfl | rfl
  · exact fun x => piece_agree 24 slices_S32x512_o24_0_S8x512 inb_S1x32x64x1024_S1x8x64x1024_0_24_0_0 (k0_pay2 x0 x2) S (k0_pay4 x4) (k0_pay5 x5) (k0_pay6 x6) x
  · exact fun x => piece_agree 16 slices_S32x512_o16_0_S8x512 inb_S1x32x64x1024_S1x8x64x1024_0_16_0_0 (k0_pay2 x0 x2) S (k0_pay4 x4) (k0_pay5 x5) (k0_pay6 x6) x
  · exact fun x => piece_agree 8 slices_S32x512_o8_0_S8x512 inb_S1x32x64x1024_S1x8x64x1024_0_8_0_0 (k0_pay2 x0 x2) S (k0_pay4 x4) (k0_pay5 x5) (k0_pay6 x6) x
  · exact fun x => piece_agree 0 slices_S32x512_o0_0_S8x512 inb_S1x32x64x1024_S1x8x64x1024_0_0_0_0 (k0_pay2 x0 x2) S (k0_pay4 x4) (k0_pay5 x5) (k0_pay6 x6) x

/-- At the first frame tile of a batch the output block is the block's function of the decoder projection just computed. -/
theorem outA_eq (c : Dev nD) (i : grid0.Coords) (arg2 : Memref sig .tc .vmem S1x32x256 .f32) (harg2 : arg2.IsWhole) (arg3 : Memref sig .tc .vmem S1x64x256 .f32) (harg3 : arg3.IsWhole) (arg4 : Memref sig .tc .vmem S512x256 .bf16) (harg4 : arg4.IsWhole) (arg5 : Memref sig .tc .vmem S512x256 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x1024 .f32) (harg8 : arg8.IsWhole) (arg9 : Memref sig .tc .vmem S1x32x64x1024 .f32) (harg9 : arg9.IsWhole) (arg10 : Memref sig .tc .vmem S64x512 .f32) (harg10 : arg10.IsWhole) (hc0 : cond0_0 i)
    (x0 : FVec Ideal S1x32x256 .f32) (x1 : FVec Ideal S1x64x256 .f32) (x2 : FVec Ideal S512x256 .bf16) (x3 : FVec Ideal S512x256 .bf16)
    (x4 : FVec Ideal S1x512 .f32) (x5 : FVec Ideal S1024x512 .bf16) (x6 : FVec Ideal S1x1024 .f32) :
    out0_A_7 (F := Ideal) c i arg2 harg2 arg3 harg3 arg4 harg4 arg5 harg5 arg6 harg6 arg7 harg7 arg8 harg8 arg9 harg9 arg10 harg10 hc0 x0 x1 x2 x3 x4 x5 x6
      = blockVal (k0_pay2 x0 x2) (k0_pay3 x1 x3) (k0_pay4 x4) (k0_pay5 x5) (k0_pay6 x6) := by
  unfold out0_A_7
  rw [View.read_writes_eq_canon _ _ _ (cover0_A_7 (F := Ideal) c i arg2 harg2 arg3 harg3 arg4 harg4 arg5 harg5 arg6 harg6 arg7 harg7 arg8 harg8 arg9 harg9 arg10 harg10 hc0 x0 x1 x2 x3 x4 x5 x6)]
  funext y
  have hc := cover0_A_7 (F := Ideal) c i arg2 harg2 arg3 harg3 arg4 harg4 arg5 harg5 arg6 harg6 arg7 harg7 arg8 harg8 arg9 harg9 arg10 harg10 hc0 x0 x1 x2 x3 x4 x5 x6 y
  rw [runA_pieces] at hc ⊢
  exact View.canon_apply_of_pieces _ _ (pieces_agree x0 x2 (k0_pay3 x1 x3) x4 x5 x6) y hc

/-- At the other points it is the block's function of what the scratch holds. -/
theorem outB_eq (c : Dev nD) (i : grid0.Coords) (arg2 : Memref sig .tc .vmem S1x32x256 .f32) (harg2 : arg2.IsWhole) (arg3 : Memref sig .tc .vmem S1x64x256 .f32) (harg3 : arg3.IsWhole) (arg4 : Memref sig .tc .vmem S512x256 .bf16) (harg4 : arg4.IsWhole) (arg5 : Memref sig .tc .vmem S512x256 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x1024 .f32) (harg8 : arg8.IsWhole) (arg9 : Memref sig .tc .vmem S1x32x64x1024 .f32) (harg9 : arg9.IsWhole) (arg10 : Memref sig .tc .vmem S64x512 .f32) (harg10 : arg10.IsWhole) (hc0 : ¬cond0_0 i)
    (x0 : FVec Ideal S1x32x256 .f32) (x1 : FVec Ideal S1x64x256 .f32) (x2 : FVec Ideal S512x256 .bf16) (x3 : FVec Ideal S512x256 .bf16)
    (x4 : FVec Ideal S1x512 .f32) (x5 : FVec Ideal S1024x512 .bf16) (x6 : FVec Ideal S1x1024 .f32) (xs0 : FVec Ideal S64x512 .f32) :
    out0_B_7 (F := Ideal) c i arg2 harg2 arg3 harg3 arg4 harg4 arg5 harg5 arg6 harg6 arg7 harg7 arg8 harg8 arg9 harg9 arg10 harg10 hc0 x0 x1 x2 x3 x4 x5 x6 xs0
      = blockVal (k0_pay2 x0 x2) xs0 (k0_pay4 x4) (k0_pay5 x5) (k0_pay6 x6) := by
  unfold out0_B_7
  rw [View.read_writes_eq_canon _ _ _ (cover0_B_7 (F := Ideal) c i arg2 harg2 arg3 harg3 arg4 harg4 arg5 harg5 arg6 harg6 arg7 harg7 arg8 harg8 arg9 harg9 arg10 harg10 hc0 x0 x1 x2 x3 x4 x5 x6 xs0)]
  funext y
  have hc := cover0_B_7 (F := Ideal) c i arg2 harg2 arg3 harg3 arg4 harg4 arg5 harg5 arg6 harg6 arg7 harg7 arg8 harg8 arg9 harg9 arg10 harg10 hc0 x0 x1 x2 x3 x4 x5 x6 xs0 y
  rw [runB_pieces] at hc ⊢
  exact View.canon_apply_of_pieces _ _ (pieces_agree x0 x2 xs0 x4 x5 x6) y hc

end Cert.KernelIdeal.Block

end
-- ==== Proof.Proj.lean ====
/-
  The two projections of the kernel body at an index, on the extended reals.

  The body multiplies its block of encoder frames (cast from `[1, 32, 256]` to `[32, 256]`) by the transposed encoder half
  of the weights, and, at the first frame tile of a batch, its block of decoder positions by the transposed decoder half.
  Narrowing to the 16-bit format is the identity on the extended reals, so entry `(q, j)` of either product is the sum over
  the 256 features of the block's entry `(0, q, ·)` times row `j` of the weights.
-/
import proofs.«152257_j26439818674455_2_alg».proof.Proof.Gen.KernelIdeal.Skeleton
import proofs.«152257_j26439818674455_2_alg».proof.Proof.LibMlpRows
import Idealize.ShloMosaic.Lib.ValueLayout
import Idealize.ShloMosaic.Lib.Pipeline.Value
import Idealize.ShloMosaic.PureOps.Ideal.Laws

noncomputable section

namespace Cert.KernelIdeal.Proj

open Cert.KernelIdeal Cert.KernelIdeal.Gen Idealize.ShloMosaic Idealize.ShloMosaic.ValueIdx

/-- The encoder projection of the block's frame `q`. -/
theorem encProj_apply (x0 : FVec Ideal S1x32x256 .f32) (x2 : FVec Ideal S512x256 .bf16) (q : Fin 32) (j : Fin 512) :
    k0_pay2 x0 x2 (ix2 q j) = ∑ e : Fin 256, x0 (ix3 (0 : Fin 1) q e) * x2 (ix2 j e) := by
  unfold k0_pay2
  rw [show dot_S32x256_S256x512_S32x512_1_0_0_1_n_n
      = Cert.MlpRows.pdot 32 256 512 dot_S32x256_S256x512_S32x512_1_0_0_1_n_n_wf from rfl,
    Cert.MlpRows.pmatmul_apply]
  refine Finset.sum_congr rfl fun e _ => ?_
  rw [truncf_apply, shapeCast_1ab_ab_apply, transpose_ix2_apply, shapeCast_self]

/-- The decoder projection of the block's position `u`. -/
theorem decProj_apply (x1 : FVec Ideal S1x64x256 .f32) (x3 : FVec Ideal S512x256 .bf16) (u : Fin 64) (j : Fin 512) :
    k0_pay3 x1 x3 (ix2 u j) = ∑ p : Fin 256, x1 (ix3 (0 : Fin 1) u p) * x3 (ix2 j p) := by
  unfold k0_pay3
  rw [shapeCast_self, show dot_S64x256_S256x512_S64x512_1_0_0_1_n_n
      = Cert.MlpRows.pdot 64 256 512 dot_S64x256_S256x512_S64x512_1_0_0_1_n_n_wf from rfl,
    Cert.MlpRows.pmatmul_apply]
  refine Finset.sum_congr rfl fun p _ => ?_
  rw [truncf_apply, shapeCast_1ab_ab_apply, transpose_ix2_apply, shapeCast_self]

end Cert.KernelIdeal.Proj

end
-- ==== Proof.KernelValue.lean ====
/-
  The kernel's result array, as one function of its arguments.

  The grid has 8 × 8 points, point `t` being batch `t / 8` and frame tile `t % 8`. Its windows hand the body frames
  `32·(t % 8) … 32·(t % 8) + 31` of batch `t / 8`, the 64 decoder positions of that batch, and the whole weight and bias
  arrays; its output block is rows `32·(t % 8) …` of batch `t / 8` of the result. The scratch the body carries from point to
  point holds, after every point, the decoder projection of the point's batch: it is stored at the first tile of a batch and
  left alone at the seven others (induction over the points). So every point's output block is the block's function of the
  frames' projection and that decoder projection, which is the joint network's output restricted to the block; the 64
  blocks cover the result array, and the array ends holding the network's output function of the arrays the region found —
  the arguments themselves, the two halves of `W1`, and the biases as rows.
-/
import proofs.«152257_j26439818674455_2_alg».proof.Proof.Gen.KernelIdeal.Value
import proofs.«152257_j26439818674455_2_alg».proof.Proof.Block
import proofs.«152257_j26439818674455_2_alg».proof.Proof.Proj
import Idealize.ShloMosaic.Lib.Pipeline.Value
import Idealize.ShloMosaic.Lib.StableHlo.Run
import Idealize.ShloMosaic.Lib.ValueLayout

set_option maxRecDepth 16384

noncomputable section

namespace Cert.KernelIdeal.KernelValue

open Cert.KernelIdeal Cert.KernelIdeal.Gen Cert.KernelIdeal.Value Cert.KernelIdeal.Block Cert.KernelIdeal.Proj
open Idealize.ShloMosaic Idealize.ShloMosaic.TcCoe Idealize.SL.Sem Idealize.ShloMosaic.ValueIdx Idealize.ShloMosaic.StableHlo
open Idealize.ShloMosaic.Pipeline (Dat)
open Cert.Joint

variable (m : (ℓ : Loc nD τ sig) → Buf (Elt Ideal) ℓ) (ρ : Dev nD → PrngReg)

/-! ## Where each window's block sits -/

/-- The block indices at point `t`: batch `t / 8`, frame tile `t % 8`; the weights and biases are one block each. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 4) = t.val / 8 ∧ win0_7.index t (1 : Fin 4) = t.val % 8 ∧ win0_7.index t (2 : Fin 4) = 0
    ∧ win0_7.index t (3 : Fin 4) = 0 :=
  (by decide +kernel : ∀ t : Fin grid0.N, _)

theorem N64 : cfg0.N = 64 := N_0

/-- Frame `q` of the frames' block at point `t` is frame `32·(t % 8) + q` of batch `t / 8`. -/
theorem iblk0_apply (c : Dev nD) (t : Fin cfg0.N) (a : Fin 1) (q : Fin 32) (e : Fin 256) (b : Fin 8) (f : Fin 256)
    (hb : b.val = t.val / 8) (hf : f.val = t.val % 8 * 32 + q.val) :
    (iblk m c 0 t : Vec Ideal S1x32x256 .f32) (ix3 a q e) = V m c main_arg0 (ix3 b f e) := by
  obtain ⟨e0, e1, e2, -⟩ := idx_facts t
  show V m c main_arg0 (((cfg0.win 0).blk t).view.emb (ix3 a q e)) = _
  refine congrArg (V m c main_arg0) (funext fun ax => Fin.ext ?_)
  match ax with
  | ⟨0, _⟩ => show win0_0.index t (0 : Fin 3) * 1 + 1 * a.val = b.val; rw [e0, hb]; have := a.isLt; omega
  | ⟨1, _⟩ => show win0_0.index t (1 : Fin 3) * 32 + 1 * q.val = f.val; rw [e1, hf]; omega
  | ⟨2, _⟩ => show win0_0.index t (2 : Fin 3) * 256 + 1 * e.val = e.val; rw [e2]; omega

/-- Position `u` of the decoder block at point `t` is position `u` of batch `t / 8`. -/
theorem iblk1_apply (c : Dev nD) (t : Fin cfg0.N) (a : Fin 1) (u : Fin 64) (p : Fin 256) (b : Fin 8) (hb : b.val = t.val / 8) :
    (iblk m c 1 t : Vec Ideal S1x64x256 .f32) (ix3 a u p) = V m c main_arg1 (ix3 b u p) := by
  obtain ⟨-, -, -, e0, e1, e2, -⟩ := idx_facts t
  show V m c main_arg1 (((cfg0.win 1).blk t).view.emb (ix3 a u p)) = _
  refine congrArg (V m c main_arg1) (funext fun ax => Fin.ext ?_)
  match ax with
  | ⟨0, _⟩ => show win0_1.index t (0 : Fin 3) * 1 + 1 * a.val = b.val; rw [e0, hb]; have := a.isLt; omega
  | ⟨1, _⟩ => show win0_1.index t (1 : Fin 3) * 64 + 1 * u.val = u.val; rw [e1]; omega
  | ⟨2, _⟩ => show win0_1.index t (2 : Fin 3) * 256 + 1 * p.val = p.val; rw [e2]; omega

/-- The weight and bias windows hand the body their whole arrays. -/
theorem iblk2_apply (c : Dev nD) (t : Fin cfg0.N) (j : Fin 512) (e : Fin 256) :
    (iblk m c 2 t : Vec Ideal S512x256 .bf16) (ix2 j e) = V m c main_v1 (ix2 j e) := by
  obtain ⟨-, -, -, -, -, -, e0, e1, -⟩ := idx_facts t
  show V m c main_v1 (((cfg0.win 2).blk t).view.emb (ix2 j e)) = _
  refine congrArg (V m c main_v1) (funext fun ax => Fin.ext ?_)
  match ax with
  | ⟨0, _⟩ => show win0_2.index t (0 : Fin 2) * 512 + 1 * j.val = j.val; rw [e0]; omega
  | ⟨1, _⟩ => show win0_2.index t (1 : Fin 2) * 256 + 1 * e.val = e.val; rw [e1]; omega

theorem iblk3_apply (c : Dev nD) (t : Fin cfg0.N) (j : Fin 512) (p : Fin 256) :
    (iblk m c 3 t : Vec Ideal S512x256 .bf16) (ix2 j p) = V m c main_v3 (ix2 j p) := by
  obtain ⟨-, -, -, -, -, -, -, -, e0, e1, -⟩ := idx_facts t
  show V m c main_v3 (((cfg0.win 3).blk t).view.emb (ix2 j p)) = _
  refine congrArg (V m c main_v3) (funext fun ax => Fin.ext ?_)
  match ax with
  | ⟨0, _⟩ => show win0_3.index t (0 : Fin 2) * 512 + 1 * j.val = j.val; rw [e0]; omega
  | ⟨1, _⟩ => show win0_3.index t (1 : Fin 2) * 256 + 1 * p.val = p.val; rw [e1]; omega

theorem iblk4_apply (c : Dev nD) (t : Fin cfg0.N) (a : Fin 1) (j : Fin 512) :
    (iblk m c 4 t : Vec Ideal S1x512 .f32) (ix2 a j) = V m c main_v5 (ix2 a j) := by
  obtain ⟨-, -, -, -, -, -, -, -, -, -, e0, e1, -⟩ := idx_facts t
  show V m c main_v5 (((cfg0.win 4).blk t).view.emb (ix2 a j)) = _
  refine congrArg (V m c main_v5) (funext fun ax => Fin.ext ?_)
  match ax with
  | ⟨0, _⟩ => show win0_4.index t (0 : Fin 2) * 1 + 1 * a.val = a.val; rw [e0]; omega
  | ⟨1, _⟩ => show win0_4.index t (1 : Fin 2) * 512 + 1 * j.val = j.val; rw [e1]; omega

theorem iblk5_apply (c : Dev nD) (t : Fin cfg0.N) (v : Fin 1024) (j : Fin 512) :
    (iblk m c 5 t : Vec Ideal S1024x512 .bf16) (ix2 v j) = V m c main_v4 (ix2 v j) := by
  obtain ⟨-, -, -, -, -, -, -, -, -, -, -, -, e0, e1, -⟩ := idx_facts t
  show V m c main_v4 (((cfg0.win 5).blk t).view.emb (ix2 v j)) = _
  refine congrArg (V m c main_v4) (funext fun ax => Fin.ext ?_)
  match ax with
  | ⟨0, _⟩ => show win0_5.index t (0 : Fin 2) * 1024 + 1 * v.val = v.val; rw [e0]; omega
  | ⟨1, _⟩ => show win0_5.index t (1 : Fin 2) * 512 + 1 * j.val = j.val; rw [e1]; omega

theorem iblk6_apply (c : Dev nD) (t : Fin cfg0.N) (a : Fin 1) (v : Fin 1024) :
    (iblk m c 6 t : Vec Ideal S1x1024 .f32) (ix2 a v) = V m c main_v6 (ix2 a v) := by
  obtain ⟨-, -, -, -, -, -, -, -, -, -, -, -, -, -, e0, e1, -⟩ := idx_facts t
  show V m c main_v6 (((cfg0.win 6).blk t).view.emb (ix2 a v)) = _
  refine congrArg (V m c main_v6) (funext fun ax => Fin.ext ?_)
  match ax with
  | ⟨0, _⟩ => show win0_6.index t (0 : Fin 2) * 1 + 1 * a.val = a.val; rw [e0]; omega
  | ⟨1, _⟩ => show win0_6.index t (1 : Fin 2) * 1024 + 1 * v.val = v.val; rw [e1]; omega

/-! ## The carried scratch holds the batch's decoder projection -/

/-- Batch `b`'s decoder projection, from the arrays as the region finds them. -/
def decOf (c : Dev nD) (b : Fin 8) : FVec Ideal S64x512 .f32 := fun y =>
  decRow (V m c main_arg1) (V m c main_v3) b (y 0) (y 1)

theorem batch_lt (t : Fin cfg0.N) : t.val / 8 < 8 := by have h : t.val < 64 := lt_of_lt_of_eq t.isLt N64; omega

/-- What the body computes from point `t`'s decoder block is batch `t / 8`'s decoder projection. -/
theorem decproj_eq (c : Dev nD) (t : Fin cfg0.N) :
    k0_pay3 (F := Ideal) (iblk m c 1 t) (iblk m c 3 t) = decOf m c ⟨t.val / 8, batch_lt t⟩ := by
  funext y
  obtain ⟨u, j, rfl⟩ : ∃ (u : Fin 64) (j : Fin 512), y = ix2 u j := ⟨y 0, y 1, eq_ix2 y⟩
  refine (decProj_apply (iblk m c 1 t) (iblk m c 3 t) u j).trans ?_
  show _ = decRow (V m c main_arg1) (V m c main_v3) ⟨t.val / 8, batch_lt t⟩ u j
  unfold decRow
  refine Finset.sum_congr rfl fun p _ => ?_
  exact congrArg₂ (· * ·) (iblk1_apply m c t 0 u p ⟨t.val / 8, batch_lt t⟩ rfl) (iblk3_apply m c t j p)

/-- After every point the scratch holds the decoder projection of the point's batch: stored at the first frame tile of the
    batch, untouched at the others. -/
theorem scratch_inv (c : Dev nD) : ∀ (n : ℕ) (h : n < cfg0.N),
    (outsAt0 m c n h).2 = decOf m c ⟨n / 8, batch_lt ⟨n, h⟩⟩ := by
  have hA : ∀ (t : Fin cfg0.N), t.val % 8 = 0 → (outsAt0 m c t.val t.isLt).2 = decOf m c ⟨t.val / 8, batch_lt t⟩ := by
    intro t h0
    rw [outsAt0_A m c t h0]
    dsimp only
    exact (runA_scratch (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)).trans (decproj_eq m c t)
  intro n
  induction n with
  | zero => intro h; exact hA ⟨0, h⟩ rfl
  | succ n ih =>
    intro h
    by_cases h0 : (n + 1) % 8 = 0
    · exact hA ⟨n + 1, h⟩ h0
    · rw [outsAt0_B m c ⟨n + 1, h⟩ h0]
      dsimp only
      unfold sout0_B_0
      exact (ih (Nat.lt_of_succ_lt h)).trans (congrArg (decOf m c) (Fin.ext (by show n / 8 = (n + 1) / 8; omega)))

/-! ## Every point's output block -/

/-- The output block at point `t`: the block's function of the frames' projection and the batch's decoder projection. -/
theorem out_eq (c : Dev nD) (t : Fin cfg0.N) :
    (outsAt0 m c t.val t.isLt).1
      = blockVal (k0_pay2 (F := Ideal) (iblk m c 0 t) (iblk m c 2 t)) (decOf m c ⟨t.val / 8, batch_lt t⟩)
          (k0_pay4 (F := Ideal) (iblk m c 4 t)) (k0_pay5 (F := Ideal) (iblk m c 5 t)) (k0_pay6 (F := Ideal) (iblk m c 6 t)) := by
  by_cases h0 : t.val % 8 = 0
  · rw [outsAt0_A m c t h0]
    dsimp only
    refine (outA_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)).trans ?_
    exact congrArg (fun S => blockVal (k0_pay2 (F := Ideal) (iblk m c 0 t) (iblk m c 2 t)) S
      (k0_pay4 (F := Ideal) (iblk m c 4 t)) (k0_pay5 (F := Ideal) (iblk m c 5 t)) (k0_pay6 (F := Ideal) (iblk m c 6 t))) (decproj_eq m c t)
  · rw [outsAt0_B m c t h0]
    dsimp only
    refine (outB_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (iblk m c 6 t)
      (outsAt0 m c (t.val - 1) (Nat.lt_of_le_of_lt (Nat.sub_le _ _) t.isLt)).2).trans ?_
    refine congrArg (fun S => blockVal (k0_pay2 (F := Ideal) (iblk m c 0 t) (iblk m c 2 t)) S
      (k0_pay4 (F := Ideal) (iblk m c 4 t)) (k0_pay5 (F := Ideal) (iblk m c 5 t)) (k0_pay6 (F := Ideal) (iblk m c 6 t))) ?_
    exact (scratch_inv m c (t.val - 1) _).trans (congrArg (decOf m c) (Fin.ext (by
      show (t.val - 1) / 8 = t.val / 8
      have := t.isLt; omega)))

/-! ## The blocks are blocks of the network's output -/

/-- The network's output function of the arrays as the region finds them. -/
def GV (c : Dev nD) : S8x256x64x1024.Idx → EReal := fun i =>
  out (V m c main_arg0) (V m c main_arg1) (V m c main_v1) (V m c main_v3) (fun j => V m c main_v5 (ix2 (0 : Fin 1) j))
    (V m c main_v4) (fun v => V m c main_v6 (ix2 (0 : Fin 1) v)) (i 0) (i 1) (i 2) (i 3)

/-- Two rows of scores built from pointwise equal ingredients, read at equal places, have equal log-softmax. -/
theorem lsm_congr {ep ep' dp dp' b1 b1' : Fin 512 → EReal} {W W' : Fin 1024 → Fin 512 → EReal} {b2 b2' : Fin 1024 → EReal}
    {v v' : Fin 1024} (h1 : ∀ j, ep j = ep' j) (h2 : ∀ j, dp j = dp' j) (h3 : ∀ j, b1 j = b1' j) (h4 : ∀ v j, W v j = W' v j)
    (h5 : ∀ v, b2 v = b2' v) (h6 : v = v') :
    lsm (logitRow ep dp b1 W b2) v = lsm (logitRow ep' dp' b1' W' b2') v' := by
  obtain rfl : ep = ep' := funext h1
  obtain rfl : dp = dp' := funext h2
  obtain rfl : b1 = b1' := funext h3
  obtain rfl : W = W' := funext fun v => funext (h4 v)
  obtain rfl : b2 = b2' := funext h5
  rw [h6]

/-- WHAT POINT `t` WRITES BACK is block `t` of the network's output. -/
theorem flushed_eq (c : Dev nD) (t : Fin cfg0.N) :
    (dats m 0 c).flushed 7 t = ((cfg0.win 7).blk t).view.read (Elt Ideal) (GV m c) := by
  rw [flushed7, out_eq]
  obtain ⟨-, -, -, -, -, -, -, -, -, -, -, -, -, -, -, -, e0, e1, e2, e3⟩ := idx_facts t
  have hN : t.val < 64 := lt_of_lt_of_eq t.isLt N64
  funext y
  have y0 : (y 0).val < 1 := (y 0).isLt
  have y1 : (y 1).val < 32 := (y 1).isLt
  have y2 : (y 2).val < 64 := (y 2).isLt
  have y3 : (y 3).val < 1024 := (y 3).isLt
  rw [View.read_apply]
  show blockVal _ _ _ _ _ ((cfg0.win 7).xinj (grid0.coords t) y) = GV m c (((cfg0.win 7).blk t).view.emb y)
  have hB : ((((cfg0.win 7).blk t).view.emb y) 0).val = t.val / 8 := by
    show win0_7.index t (0 : Fin 4) * 1 + 1 * (y 0).val = t.val / 8; rw [e0]; omega
  have hT : ((((cfg0.win 7).blk t).view.emb y) 1).val = t.val % 8 * 32 + (y 1).val := by
    show win0_7.index t (1 : Fin 4) * 32 + 1 * (y 1).val = _; rw [e1]; omega
  have hU : ((((cfg0.win 7).blk t).view.emb y) 2).val = (y 2).val := by
    show win0_7.index t (2 : Fin 4) * 64 + 1 * (y 2).val = _; rw [e2]; omega
  have hV : ((((cfg0.win 7).blk t).view.emb y) 3).val = (y 3).val := by
    show win0_7.index t (3 : Fin 4) * 1024 + 1 * (y 3).val = _; rw [e3]; omega
  unfold blockVal GV out
  refine lsm_congr (fun j => ?_) (fun j => ?_) (fun j => ?_) (fun v j => ?_) (fun v => ?_) (Fin.ext hV.symm)
  · refine (encProj_apply (iblk m c 0 t) (iblk m c 2 t) ⟨(y 1).val, y1⟩ j).trans ?_
    unfold encRow
    refine Finset.sum_congr rfl fun e _ => ?_
    exact congrArg₂ (· * ·) (iblk0_apply m c t 0 ⟨(y 1).val, y1⟩ e _ _ hB hT) (iblk2_apply m c t j e)
  · show decRow (V m c main_arg1) (V m c main_v3) ⟨t.val / 8, batch_lt t⟩ ⟨(y 2).val, y2⟩ j = _
    exact congrArg₂ (fun b u => decRow (V m c main_arg1) (V m c main_v3) b u j) (Fin.ext hB.symm) (Fin.ext hU.symm)
  · show shapeCast S1x512 (iblk m c 4 t : Vec Ideal S1x512 .f32) shapeCasts_S1x512_S1x512 (ix2 (0 : Fin 1) j) = _
    exact (congrFun (shapeCast_self (iblk m c 4 t : Vec Ideal S1x512 .f32) shapeCasts_S1x512_S1x512) _).trans (iblk4_apply m c t 0 j)
  · show shapeCast S1024x512 (iblk m c 5 t : Vec Ideal S1024x512 .bf16) shapeCasts_S1024x512_S1024x512 (ix2 v j) = _
    exact (congrFun (shapeCast_self (iblk m c 5 t : Vec Ideal S1024x512 .bf16) shapeCasts_S1024x512_S1024x512) _).trans (iblk5_apply m c t v j)
  · show shapeCast S1x1024 (iblk m c 6 t : Vec Ideal S1x1024 .f32) shapeCasts_S1x1024_S1x1024 (ix2 (0 : Fin 1) v) = _
    exact (congrFun (shapeCast_self (iblk m c 6 t : Vec Ideal S1x1024 .f32) shapeCasts_S1x1024_S1x1024) _).trans (iblk6_apply m c t 0 v)

/-- An index of the result array is in point `t`'s block iff each coordinate is in the block's range on its axis. -/
theorem mem_blk (t : Fin cfg0.N) (i : S8x256x64x1024.Idx) :
    i ∈ ((cfg0.win 7).blk t).view.set ↔ ∀ a : Fin 4, win0_7.index t a * S1x32x64x1024.size a ≤ (i a).val
      ∧ (i a).val < win0_7.index t a * S1x32x64x1024.size a + S1x32x64x1024.size a := by
  show i ∈ ((View.whole main_v7).slice (win0_7.rect t)).set ↔ _
  rw [View.set_slice_whole, Rect.mem_set_unit]
  exact Iff.rfl

/-- The 64 blocks cover the result array: entry `(b, f, u, v)` is in the block of point `8·b + f / 32`. -/
theorem cover (i : S8x256x64x1024.Idx) : ∃ t : Fin cfg0.N, (cfg0.win 7).flush t = true ∧ i ∈ ((cfg0.win 7).blk t).view.set := by
  have i0 : (i 0).val < 8 := (i 0).isLt
  have i1 : (i 1).val < 256 := (i 1).isLt
  have i2 : (i 2).val < 64 := (i 2).isLt
  have i3 : (i 3).val < 1024 := (i 3).isLt
  have ht : (i 0).val * 8 + (i 1).val / 32 < cfg0.N := by rw [N64]; omega
  refine ⟨⟨(i 0).val * 8 + (i 1).val / 32, ht⟩, flush0_7 _, ?_⟩
  obtain ⟨-, -, -, -, -, -, -, -, -, -, -, -, -, -, -, -, e0, e1, e2, e3⟩ := idx_facts ⟨(i 0).val * 8 + (i 1).val / 32, ht⟩
  rw [mem_blk]
  intro a
  match a with
  | ⟨0, _⟩ =>
    show win0_7.index _ (0 : Fin 4) * 1 ≤ (i 0).val ∧ (i 0).val < win0_7.index _ (0 : Fin 4) * 1 + 1
    rw [e0]; dsimp only; omega
  | ⟨1, _⟩ =>
    show win0_7.index _ (1 : Fin 4) * 32 ≤ (i 1).val ∧ (i 1).val < win0_7.index _ (1 : Fin 4) * 32 + 32
    rw [e1]; dsimp only; omega
  | ⟨2, _⟩ =>
    show win0_7.index _ (2 : Fin 4) * 64 ≤ (i 2).val ∧ (i 2).val < win0_7.index _ (2 : Fin 4) * 64 + 64
    rw [e2]; omega
  | ⟨3, _⟩ =>
    show win0_7.index _ (3 : Fin 4) * 1024 ≤ (i 3).val ∧ (i 3).val < win0_7.index _ (3 : Fin 4) * 1024 + 1024
    rw [e3]; omega

/-- The result array after the run: the network's output function of the arrays as the region finds them. -/
theorem final (c : Dev nD) : (dats m 0 c).arrAt 7 cfg0.N = GV m c :=
  (dats m 0 c).arrAt_eq_of_cover 7 (GV m c) (fun t _ => flushed_eq m c t) cover

/-! ## The arrays the region finds, from the arguments -/

theorem V_v1 (c : Dev nD) : (V m c main_v1 : S512x256.Idx → EReal) = W1e (m ((c.tc : Thread nD τ).loc main_arg2)) := by
  have e : (V m c main_v1 : S512x256.Idx → EReal)
      = truncf (F := Ideal) .bf16 (extractStridedSlice S512x256 ![0, 0] (m ((c.tc : Thread nD τ).loc main_arg2)) slices_S512x512_S512x256_0_0) bitsLt_bf16_f32 := by
    dsimp only [Gen.V, Gen.hostOps0]; after_results; try rfl
  rw [e]
  funext i
  obtain ⟨j, k, rfl⟩ : ∃ (j : Fin 512) (k : Fin 256), i = ix2 j k := ⟨i 0, i 1, eq_ix2 i⟩
  rw [truncf_apply, slice2_axis1_apply 0 _ _ j k (lo k) (by show k.val = 0 + k.val; omega)]
  rfl

theorem V_v3 (c : Dev nD) : (V m c main_v3 : S512x256.Idx → EReal) = W1d (m ((c.tc : Thread nD τ).loc main_arg2)) := by
  have e : (V m c main_v3 : S512x256.Idx → EReal)
      = truncf (F := Ideal) .bf16 (extractStridedSlice S512x256 ![0, 256] (m ((c.tc : Thread nD τ).loc main_arg2)) slices_S512x512_S512x256_0_256) bitsLt_bf16_f32 := by
    dsimp only [Gen.V, Gen.hostOps0]; after_results; try rfl
  rw [e]
  funext i
  obtain ⟨j, k, rfl⟩ : ∃ (j : Fin 512) (k : Fin 256), i = ix2 j k := ⟨i 0, i 1, eq_ix2 i⟩
  rw [truncf_apply, slice2_axis1_apply 256 _ _ j k (hi k) rfl]
  rfl

theorem V_v4 (c : Dev nD) : (V m c main_v4 : S1024x512.Idx → EReal) = m ((c.tc : Thread nD τ).loc main_arg4) := by
  have e : (V m c main_v4 : S1024x512.Idx → EReal)
      = truncf (F := Ideal) .bf16 (m ((c.tc : Thread nD τ).loc main_arg4)) bitsLt_bf16_f32 := by
    dsimp only [Gen.V, Gen.hostOps0]; after_results; try rfl
  rw [e]; rfl

theorem V_v5 (c : Dev nD) (j : Fin 512) : V m c main_v5 (ix2 (0 : Fin 1) j) = m ((c.tc : Thread nD τ).loc main_arg3) (ix1 j) := by
  have e : (V m c main_v5 : S1x512.Idx → EReal)
      = shapeCast S1x512 (m ((c.tc : Thread nD τ).loc main_arg3)) shapeCasts_S512_S1x512 := by
    dsimp only [Gen.V, Gen.hostOps0]; after_results; try rfl
  rw [e, shapeCast_a_1a_apply]

theorem V_v6 (c : Dev nD) (v : Fin 1024) : V m c main_v6 (ix2 (0 : Fin 1) v) = m ((c.tc : Thread nD τ).loc main_arg5) (ix1 v) := by
  have e : (V m c main_v6 : S1x1024.Idx → EReal)
      = shapeCast S1x1024 (m ((c.tc : Thread nD τ).loc main_arg5)) shapeCasts_S1024_S1x1024 := by
    dsimp only [Gen.V, Gen.hostOps0]; after_results; try rfl
  rw [e, shapeCast_a_1a_apply]

/-- So the result array is the network's output function of the six arguments. -/
theorem GV_eq (c : Dev nD) :
    GV m c = G (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  funext i
  unfold GV G
  rw [V_main_arg0 m c, V_main_arg1 m c, V_v1 m c, V_v3 m c, V_v4 m c]
  simp only [V_v5 m c, V_v6 m c]

/-! ## The run, read -/

/-- Every weakly fair execution of the kernel's program terminates with the result array at the network's output function of
    the arguments, and the arguments unchanged. -/
theorem run : θ_run defs (onTc (τ := τ) (main (F := Ideal))) ⟨m, fun _ => 0, ρ⟩ fun r => ∀ c : Dev nD,
      r.2.mem ((c : Thread nD τ).loc main_v7) = G (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (GV_eq m c)), (h c).2⟩) (run_blocks m ρ)

end Cert.KernelIdeal.KernelValue

end
-- ==== Proof.lean ====
/-
  The joint network of a transducer — two projections, a hidden `tanh` layer, an output layer and a log-softmax over the
  vocabulary — computed by one fused kernel over a grid of 8 batches × 8 tiles of 32 encoder frames, against the plain
  array program that computes it layer by layer.

  On the extended reals both programs end with the result array at ONE function of the six arguments, `Cert.Joint.G`
  (Proof/Spec.lean): entry `(b, t, u, v)` is the log-softmax at `v` of the scores
  `(∑ j, tanh (ep j + dp j + b1 j) · W2 (v, j)) + b2 v`, with `ep` and `dp` the projections of encoder frame `(b, t)` and of
  decoder position `(b, u)` by the two halves of `W1`.

  The kernel (Proof/KernelValue.lean): every grid point stores four chunks of 8 frames, each the log-softmax of a 512-row
  matrix of scores whose row `r·64 + u` pairs frame `r` of the chunk with decoder position `u` (Proof/Chunk.lean,
  Proof/Block.lean); the decoder projection is computed at the first tile of a batch, kept in a scratch buffer, and read at
  the seven other tiles — by induction over the grid points the scratch holds the batch's decoder projection after every
  point —, and the 64 output blocks tile the result array. Narrowing a value to the 16-bit float format is the identity on
  the extended reals, a matrix product into a zero accumulator is the sum of products, a lane maximum from `-∞` is a
  supremum.

  The reference (Proof/RefValue.lean): its operations read one at a time at an index give the same formula; its row
  maximum, a reduction from `-∞` followed by a maximum with `-∞`, is the same supremum.

  No law beyond reading both programs at an index is needed, so the finiteness of the inputs is never used. The three frame
  claims are the programs' runs with the results dropped, and the idealization rewrote nothing.
-/
import proofs.«152257_j26439818674455_2_alg».proof.Defs
import proofs.«152257_j26439818674455_2_alg».proof.Proof.Gen.Kernel
import proofs.«152257_j26439818674455_2_alg».proof.Proof.Gen.Kernel.Frame
import proofs.«152257_j26439818674455_2_alg».proof.Proof.Gen.KernelIdeal
import proofs.«152257_j26439818674455_2_alg».proof.Proof.Gen.KernelIdeal.Frame
import proofs.«152257_j26439818674455_2_alg».proof.Proof.Gen.KernelIdeal.Value
import proofs.«152257_j26439818674455_2_alg».proof.Proof.Gen.ReferenceIdeal
import proofs.«152257_j26439818674455_2_alg».proof.Proof.Gen.Pre_finite_inputs
import proofs.«152257_j26439818674455_2_alg».proof.Proof.RefRunP
import proofs.«152257_j26439818674455_2_alg».proof.Proof.RefReadP
import proofs.«152257_j26439818674455_2_alg».proof.Proof.RefValue
import proofs.«152257_j26439818674455_2_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both result arrays end at the network's output function of arguments that agree. -/
theorem algebraic : Cert.algebraic_KernelIdeal_ReferenceIdeal := by
  intro m ρ m' ρ' _ hagree
  refine ⟨fun c => Cert.Joint.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KernelValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v17_eq, Cert.ReferenceIdeal.RefValue.result_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
